-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v114) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S2x800000 : Shape := ⟨2, ![2, 800000]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x128 .f32) (main_arg1 : FVec F S128x64 .f32) (main_arg2 : FVec F S64 .f32) (main_arg3 : FVec F S64x2 .f32) (main_arg4 : FVec F S2 .f32) (main_arg5 : IVec S2x800000 32) (main_arg6 : IVec S800000 32) (main_arg7 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg3
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg4 main_v13 main_v16
-- ==== Kernel.lean ====
abbrev S50000x128 : Shape := ⟨2, ![50000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S2x800000 : Shape := ⟨2, ![2, 800000]⟩
abbrev S800000 : Shape := ⟨1, ![800000]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S10000x128 : Shape := ⟨2, ![10000, 128]⟩
abbrev S10000x64 : Shape := ⟨2, ![10000, 64]⟩
abbrev S850000x64 : Shape := ⟨2, ![850000, 64]⟩
abbrev S1x64 : Shape := ⟨2, ![1, 64]⟩
abbrev S50000x2 : Shape := ⟨2, ![50000, 2]⟩
abbrev S10000x2 : Shape := ⟨2, ![10000, 2]⟩
abbrev S850000x2 : Shape := ⟨2, ![850000, 2]⟩
abbrev S1x2 : Shape := ⟨2, ![1, 2]⟩
abbrev S800000x1 : Shape := ⟨2, ![800000, 1]⟩
abbrev S800000x2 : Shape := ⟨2, ![800000, 2]⟩
abbrev S1600000x2 : Shape := ⟨2, ![1600000, 2]⟩
abbrev S1600000x1 : Shape := ⟨2, ![1600000, 1]⟩
abbrev S1600000 : Shape := ⟨1, ![1600000]⟩
abbrev S1638400 : Shape := ⟨1, ![1638400]⟩
abbrev S12800x128 : Shape := ⟨2, ![12800, 128]⟩
abbrev S3200x128 : Shape := ⟨2, ![3200, 128]⟩

abbrev nBuf : Space → Nat
  | .hbm => 153
  | .vmem => 16
  | .smem => 0
  | _ => 0

abbrev hbmTy0_0 (i : Nat) : BufTy := match i % 128 with
  | 0 => ⟨S50000x128, .f32⟩
  | 1 => ⟨S128x64, .f32⟩
  | 2 => ⟨S64, .f32⟩
  | 3 => ⟨S64x2, .f32⟩
  | 4 => ⟨S2, .f32⟩
  | 5 => ⟨S2x800000, .i32⟩
  | 6 => ⟨S800000, .i32⟩
  | 7 => ⟨S800000, .i32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .bf16⟩
  | 49 => ⟨S128x64, .bf16⟩
  | 50 => ⟨S50000x64, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x64, .f32⟩
  | 60 => ⟨S850000x1, .f32⟩
  | 61 => ⟨S850000x64, .f32⟩
  | 62 => ⟨S850000x64, .f32⟩
  | 63 => ⟨S_, .f32⟩
  | 64 => ⟨S50000x64, .f32⟩
  | 65 => ⟨S850000x1, .i32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S50000x64, .bf16⟩
  | 74 => ⟨S64x2, .bf16⟩
  | 75 => ⟨S50000x2, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x2, .f32⟩
  | 85 => ⟨S850000x1, .f32⟩
  | 86 => ⟨S850000x2, .f32⟩
  | 87 => ⟨S850000x2, .f32⟩
  | 88 => ⟨S_, .f32⟩
  | 89 => ⟨S50000x2, .f32⟩
  | 90 => ⟨S850000x1, .i32⟩
  | 91 => ⟨S50000x2, .f32⟩
  | 92 => ⟨S1x2, .f32⟩
  | 93 => ⟨S50000x2, .f32⟩
  | 94 => ⟨S50000x2, .f32⟩
  | 95 => ⟨S1x800000, .i32⟩
  | 96 => ⟨S800000, .i32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x2, .f32⟩
  | 106 => ⟨S1x800000, .i32⟩
  | 107 => ⟨S800000, .i32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x2, .f32⟩
  | 117 => ⟨S800000x2, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x2, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x2, .f32⟩
  | 8 => ⟨S800000x2, .f32⟩
  | 9 => ⟨S1600000x2, .f32⟩
  | 10 => ⟨S1600000x1, .f32⟩
  | 11 => ⟨S1600000, .f32⟩
  | 12 => ⟨S1600000x1, .f32⟩
  | 13 => ⟨S1600000, .f32⟩
  | 14 => ⟨S_, .i32⟩
  | 15 => ⟨S_, .f32⟩
  | 16 => ⟨S1638400, .f32⟩
  | 17 => ⟨S_, .i32⟩
  | 18 => ⟨S_, .f32⟩
  | 19 => ⟨S1638400, .f32⟩
  | 20 => ⟨S12800x128, .f32⟩
  | 21 => ⟨S12800x128, .f32⟩
  | 22 => ⟨S12800x128, .f32⟩
  | 23 => ⟨S1638400, .f32⟩
  | 24 => ⟨S1600000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .bf16⟩
  | .local _ .vmem, ⟨1, _⟩ => ⟨S10000x128, .bf16⟩
  | .local _ .vmem, ⟨2, _⟩ => ⟨S128x64, .bf16⟩
  | .local _ .vmem, ⟨3, _⟩ => ⟨S10000x64, .f32⟩
  | .local _ .vmem, ⟨4, _⟩ => ⟨S10000x64, .f32⟩
  | .local _ .vmem, ⟨5, _⟩ => ⟨S10000x64, .bf16⟩
  | .local _ .vmem, ⟨6, _⟩ => ⟨S10000x64, .bf16⟩
  | .local _ .vmem, ⟨7, _⟩ => ⟨S64x2, .bf16⟩
  | .local _ .vmem, ⟨8, _⟩ => ⟨S10000x2, .f32⟩
  | .local _ .vmem, ⟨9, _⟩ => ⟨S10000x2, .f32⟩
  | .local _ .vmem, ⟨10, _⟩ => ⟨S3200x128, .f32⟩
  | .local _ .vmem, ⟨11, _⟩ => ⟨S3200x128, .f32⟩
  | .local _ .vmem, ⟨12, _⟩ => ⟨S3200x128, .f32⟩
  | .local _ .vmem, ⟨13, _⟩ => ⟨S3200x128, .f32⟩
  | .local _ .vmem, ⟨14, _⟩ => ⟨S3200x128, .f32⟩
  | .local _ .vmem, ⟨15, _⟩ => ⟨S3200x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_12 : Ref sig .tc := ⟨.hbm, 97, rfl⟩
abbrev main_v71 : Ref sig .tc := ⟨.hbm, 98, rfl⟩
abbrev main_v72 : Ref sig .tc := ⟨.hbm, 99, rfl⟩
abbrev main_c_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_14 : Ref sig .tc := ⟨.hbm, 108, rfl⟩
abbrev main_v80 : Ref sig .tc := ⟨.hbm, 109, rfl⟩
abbrev main_v81 : Ref sig .tc := ⟨.hbm, 110, rfl⟩
abbrev main_c_15 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_16 : Ref sig .tc := ⟨.hbm, 118, rfl⟩
abbrev main_v88 : Ref sig .tc := ⟨.hbm, 119, rfl⟩
abbrev main_v89 : Ref sig .tc := ⟨.hbm, 120, rfl⟩
abbrev main_c_17 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_18 : Ref sig .tc := ⟨.hbm, 127, rfl⟩
abbrev main_v95 : Ref sig .tc := ⟨.hbm, 128, rfl⟩
abbrev main_v96 : Ref sig .tc := ⟨.hbm, 129, rfl⟩
abbrev main_c_19 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_20 : Ref sig .tc := ⟨.hbm, 142, rfl⟩
abbrev main_call2_v0 : Ref sig .tc := ⟨.hbm, 143, rfl⟩
abbrev main_v108 : Ref sig .tc := ⟨.hbm, 144, rfl⟩
abbrev main_c_21 : Ref sig .tc := ⟨.hbm, 145, rfl⟩
abbrev main_call3_v0 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x2 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3200x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S10000x64_S10000x64 : S10000x64.ShapeCasts S10000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S10000x2_S10000x2_0_0 : ∀ a, (![0, 0] : Fin 2 → Nat) a + S10000x2.size a ≤ S10000x2.size a
  h_S10000x2 : 0 < S10000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x2_S800000x2_S1600000x2_d0 : Shape.Concatenates [S800000x2, S800000x2] S1600000x2 0
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  pads_S1600000_S1638400_0384000 : S1600000.Pads (![0] : Fin 1 → Nat) ![38400] ![0] S1638400
  h_S_ : 0 < S_.numel
  shapeCasts_S1638400_S12800x128 : S1638400.ShapeCasts S12800x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  shapeCasts_S12800x128_S1638400 : S12800x128.ShapeCasts S1638400
  slices_S1638400_S1600000_0 : S1638400.Slices ![0] S1600000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x2_S10000x2_1_0_0_1_n_n_wf : DotDims.WF S10000x64 S64x2 S10000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  gather_S50000x2_S800000x1_S800000x2_1_0_n_n_0_1_12_wf : GatherDims.WF S50000x2 S800000x1 S800000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .bf16 = 32 ∨ (Rect.block (s := S50000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .bf16 = 32 ∨ (Rect.block (s := S50000x64) S10000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x2.size a ≤ S64x2.size a
  hwx1_1 : ∀ i : grid1.Coords, EltTy.bits .bf16 = 32 ∨ (Rect.block (s := S64x2) S64x2.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x2.size a ≤ S50000x2.size a
  hwx1_2 : ∀ i : grid1.Coords, EltTy.bits .f32 = 32 ∨ (Rect.block (s := S50000x2) S10000x2.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x128.size a ≤ S12800x128.size a
  hwx2_0 : ∀ i : grid2.Coords, EltTy.bits .f32 = 32 ∨ (Rect.block (s := S12800x128) S3200x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x128.size a ≤ S12800x128.size a
  hwx2_1 : ∀ i : grid2.Coords, EltTy.bits .f32 = 32 ∨ (Rect.block (s := S12800x128) S3200x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3200x128.size a ≤ S12800x128.size a
  hwx2_2 : ∀ i : grid2.Coords, EltTy.bits .f32 = 32 ∨ (Rect.block (s := S12800x128) S3200x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf

abbrev win0_0 : Pipeline.Window sig grid0 :=
  Pipeline.Window.ofSpec (Memref.whole main_v30) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S64x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v110) S3200x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v111) S3200x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v112) S3200x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S2x800000 : Shape := ⟨2, ![2, 800000]⟩
abbrev S800000 : Shape := ⟨1, ![800000]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x2 : Shape := ⟨2, ![50000, 2]⟩
abbrev S850000x2 : Shape := ⟨2, ![850000, 2]⟩
abbrev S1x2 : Shape := ⟨2, ![1, 2]⟩
abbrev S800000x1 : Shape := ⟨2, ![800000, 1]⟩
abbrev S800000x2 : Shape := ⟨2, ![800000, 2]⟩
abbrev S1600000 : Shape := ⟨1, ![1600000]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S128x64, .f32⟩
  | 2 => ⟨S64, .f32⟩
  | 3 => ⟨S64x2, .f32⟩
  | 4 => ⟨S2, .f32⟩
  | 5 => ⟨S2x800000, .i32⟩
  | 6 => ⟨S800000, .i32⟩
  | 7 => ⟨S800000, .i32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x64, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x64, .f32⟩
  | 58 => ⟨S850000x1, .f32⟩
  | 59 => ⟨S850000x64, .f32⟩
  | 60 => ⟨S850000x64, .f32⟩
  | 61 => ⟨S_, .f32⟩
  | 62 => ⟨S50000x64, .f32⟩
  | 63 => ⟨S850000x1, .i32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x2, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x2, .f32⟩
  | 81 => ⟨S850000x1, .f32⟩
  | 82 => ⟨S850000x2, .f32⟩
  | 83 => ⟨S850000x2, .f32⟩
  | 84 => ⟨S_, .f32⟩
  | 85 => ⟨S50000x2, .f32⟩
  | 86 => ⟨S850000x1, .i32⟩
  | 87 => ⟨S50000x2, .f32⟩
  | 88 => ⟨S1x2, .f32⟩
  | 89 => ⟨S50000x2, .f32⟩
  | 90 => ⟨S50000x2, .f32⟩
  | 91 => ⟨S1x800000, .i32⟩
  | 92 => ⟨S800000, .i32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x2, .f32⟩
  | 102 => ⟨S1x800000, .i32⟩
  | 103 => ⟨S800000, .i32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x2, .f32⟩
  | 113 => ⟨S800000x2, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x2, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000x2, .f32⟩
  | 4 => ⟨S800000x2, .f32⟩
  | 5 => ⟨S800000x2, .f32⟩
  | 6 => ⟨S_, .f32⟩
  | 7 => ⟨S800000, .f32⟩
  | 8 => ⟨S_, .f32⟩
  | 9 => ⟨S800000, .f32⟩
  | 10 => ⟨S800000, .f32⟩
  | 11 => ⟨S800000, .f32⟩
  | 12 => ⟨S800000x2, .f32⟩
  | 13 => ⟨S_, .f32⟩
  | 14 => ⟨S800000, .f32⟩
  | 15 => ⟨S_, .f32⟩
  | 16 => ⟨S800000, .f32⟩
  | 17 => ⟨S800000, .f32⟩
  | 18 => ⟨S800000, .f32⟩
  | 19 => ⟨S1600000, .f32⟩
  | 20 => ⟨S_, .f32⟩
  | 21 => ⟨S1600000, .f32⟩
  | 22 => ⟨S1600000, .f32⟩
  | 23 => ⟨S_, .f32⟩
  | 24 => ⟨S1600000, .f32⟩
  | 25 => ⟨S1600000, .f32⟩
  | 26 => ⟨S_, .f32⟩
  | 27 => ⟨S1600000, .f32⟩
  | 28 => ⟨S1600000, .f32⟩
  | 29 => ⟨S_, .f32⟩
  | 30 => ⟨S1600000, .f32⟩
  | 31 => ⟨S1600000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_12 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_14 : Ref sig .tc := ⟨.hbm, 104, rfl⟩
abbrev main_v76 : Ref sig .tc := ⟨.hbm, 105, rfl⟩
abbrev main_v77 : Ref sig .tc := ⟨.hbm, 106, rfl⟩
abbrev main_c_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_16 : Ref sig .tc := ⟨.hbm, 114, rfl⟩
abbrev main_v84 : Ref sig .tc := ⟨.hbm, 115, rfl⟩
abbrev main_v85 : Ref sig .tc := ⟨.hbm, 116, rfl⟩
abbrev main_c_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_18 : Ref sig .tc := ⟨.hbm, 123, rfl⟩
abbrev main_v91 : Ref sig .tc := ⟨.hbm, 124, rfl⟩
abbrev main_v92 : Ref sig .tc := ⟨.hbm, 125, rfl⟩
abbrev main_c_19 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_20 : Ref sig .tc := ⟨.hbm, 134, rfl⟩
abbrev main_v100 : Ref sig .tc := ⟨.hbm, 135, rfl⟩
abbrev main_cst_21 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_22 : Ref sig .tc := ⟨.hbm, 141, rfl⟩
abbrev main_v105 : Ref sig .tc := ⟨.hbm, 142, rfl⟩
abbrev main_cst_23 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_24 : Ref sig .tc := ⟨.hbm, 148, rfl⟩
abbrev main_v110 : Ref sig .tc := ⟨.hbm, 149, rfl⟩
abbrev main_v111 : Ref sig .tc := ⟨.hbm, 150, rfl⟩
abbrev main_cst_25 : Ref sig .tc := ⟨.hbm, 151, rfl⟩
abbrev main_v112 : Ref sig .tc := ⟨.hbm, 152, rfl⟩
abbrev main_v113 : Ref sig .tc := ⟨.hbm, 153, rfl⟩
abbrev main_cst_26 : Ref sig .tc := ⟨.hbm, 154, rfl⟩
abbrev main_v114 : Ref sig .tc := ⟨.hbm, 155, rfl⟩
abbrev main_v115 : Ref sig .tc := ⟨.hbm, 156, rfl⟩
abbrev main_cst_27 : Ref sig .tc := ⟨.hbm, 157, rfl⟩
abbrev main_v116 : Ref sig .tc := ⟨.hbm, 158, rfl⟩
abbrev main_v117 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S800000x2_S800000_d1 : S800000x2.ReducesTo [1] S800000
  h_S_ : 0 < S_.numel
  concatenates_S800000_S800000_S1600000_d0 : Shape.Concatenates [S800000, S800000] S1600000 0
  bcast_S_S1600000 : S_.BroadcastsInDim S1600000 (![] : Fin 0 → Fin S1600000.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x2_S50000x2_1_0_0_1_n_n_wf : DotDims.WF S50000x64 S64x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  gather_S50000x2_S800000x1_S800000x2_1_0_n_n_0_1_12_wf : GatherDims.WF S50000x2 S800000x1 S800000x2 [1] [0] [] [0] [] 1 ![1, 2]

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf

class Facts : Prop extends Facts₀ where

variable [Facts]
-- ==== Proof.FinalMemory.lean ====
/-
  The idealized kernel program is three pipelined regions among stretches of host operations. Its run, from any
  launch memory, ends with every buffer that outlives the regions holding the contents of the last segment boundary:
  the fold of the host stretches and of the three regions' write-backs over the launch memory. The frame claim keeps
  of that final state only the argument arrays; a value claim needs the two result arrays as well, so the run is
  stated here with the final memory read at every unscoped buffer.
-/
import proofs.«163118_j47777216201257_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and in the final memory each buffer that is not a
    region's scoped staging storage holds the last boundary's contents. -/
theorem run_final : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W15 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c b hb => h c _ (mem_uc b hb))

end Cert.KernelIdeal.Whole

end
-- ==== Proof.Stretch.lean ====
/-
  Both programs' host code is the same sequence of array operations; only the dense products and the last stage differ.
  A buffer's contents after a stretch of host operations is the fold of the operations' results over the contents
  before it. Reading the fold at one buffer walks it back: at the operation that wrote the buffer, that operation's
  function of its operands' contents; at every other operation, what was there before. The fold over a stretch cut in
  two is the second piece's fold over the first's.
-/
import Idealize.ShloMosaic.Lib.StableHlo.Run

namespace Cert.Bridge

open Idealize.ShloMosaic Idealize.ShloMosaic.StableHlo

/-- The fold over two lines run one after the other is the second line's fold over the first's. -/
theorem after_append {τ : Topo} {sig : RefSig} {Val : EltTy → Type} (l₁ l₂ : List (HloOp τ sig Val)) :
    ∀ V : Valuation τ sig Val, after (l₁ ++ l₂) V = after l₂ (after l₁ V) := by
  induction l₁ with
  | nil => intro V; rfl
  | cons op l ih => intro V; simp only [List.cons_append, after_cons, ih]

/-- One step of reading a fold at a buffer, repeated: an operation's result at its own buffer is its function's value,
    at any other buffer what was there. -/
macro "finish_results" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

end Cert.Bridge
-- ==== Proof.ReferenceRun.lean ====
/-
  The reference program is a straight line of 152 host operations. Every weakly fair execution of it terminates, and
  in the final memory each buffer holds the fold of the operations' results over the launch contents. The run is stated
  in that fold form, the operation list cut into the eight stretches the comparison with the kernel needs (the two
  dense products are stretches of one operation each: they are where the kernel launches a pipelined region instead),
  with the buffer contents at each cut named.
-/
import proofs.«163118_j47777216201257_1_alg».proof.Proof.Gen.ReferenceIdeal
import proofs.«163118_j47777216201257_1_alg».proof.Proof.Stretch
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.Bridge (after_append)

variable {F : FTy → Type} [FloatOps F]

/-- The edge lists with self-loops appended (row, col), the degree of every node (a sum of ones scattered by row), its inverse square root where the degree is positive, and the per-edge normalisation `dinv[row] · dinv[col]`. -/
abbrev normOps : List (HloOp τ sig (Elt F)) :=
  [ nullary main_v0 (iotaInDim S50000 32 0),
    unary main_arg5 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg5 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v3 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- The first layer's dense product, features · W1. -/
abbrev firstDot : List (HloOp τ sig (Elt F)) :=
  [ binary main_arg0 main_arg1 main_v30 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- The first layer's message passing: rows of the product gathered by `col`, scaled by the normalisation, summed into their `row`, the bias added, and the ReLU. -/
abbrev firstLayerOps : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x64 ![0, 1] bcast_S850000x1_S850000x64_0_1 : (⟨S850000x1, .f32⟩ : BufTy).Contents (Elt F) → (⟨S850000x64, .f32⟩ : BufTy).Contents (Elt F)),
    binary main_v37 main_v39 main_v40 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v3 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg2 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v46) (TRef.of (T := ⟨S50000x64, .f32⟩) main_call1_v0) (TRef.of (T := ⟨S50000x64, .f32⟩) main_v47) maximumf ]

/-- The second layer's dense product, h · W2. -/
abbrev secondDot : List (HloOp τ sig (Elt F)) :=
  [ binary main_v47 main_arg3 main_v48 ((fun l r => Host.dotGeneral dot_S50000x64_S64x2_S50000x2_1_0_0_1_n_n none l r) : (⟨S50000x64, .f32⟩ : BufTy).Contents (Elt F) → (⟨S64x2, .f32⟩ : BufTy).Contents (Elt F) → (⟨S50000x2, .f32⟩ : BufTy).Contents (Elt F)) ]

/-- The second layer's message passing: gather by `col`, scale, sum into `row`, add the bias: the embedding. -/
abbrev secondLayerOps : List (HloOp τ sig (Elt F)) :=
  [ nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v6 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v6 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v6 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x2_S850000x1_S850000x2_1_0_n_n_0_1_12 x i) : (⟨S50000x2, .f32⟩ : BufTy).Contents (Elt F) → (⟨S850000x1, .i32⟩ : BufTy).Contents (Elt F) → (⟨S850000x2, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x2 ![0, 1] bcast_S850000x1_S850000x2_0_1 : (⟨S850000x1, .f32⟩ : BufTy).Contents (Elt F) → (⟨S850000x2, .f32⟩ : BufTy).Contents (Elt F)),
    binary main_v55 main_v57 main_v58 (mulf : (⟨S850000x2, .f32⟩ : BufTy).Contents (Elt F) → (⟨S850000x2, .f32⟩ : BufTy).Contents (Elt F) → (⟨S850000x2, .f32⟩ : BufTy).Contents (Elt F)),
    nullary main_cst_11 (constant S_ .f32 0x00000000#32),
    unary main_cst_11 main_v59 (broadcastInDim S50000x2 ![] bcast_S_S50000x2 : (⟨S_, .f32⟩ : BufTy).Contents (Elt F) → (⟨S50000x2, .f32⟩ : BufTy).Contents (Elt F)),
    unary main_v3 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x2_S850000x1_S850000x2_1_0_0_1 x i u) : (⟨S50000x2, .f32⟩ : BufTy).Contents (Elt F) → (⟨S850000x1, .i32⟩ : BufTy).Contents (Elt F) → (⟨S850000x2, .f32⟩ : BufTy).Contents (Elt F) → (⟨S50000x2, .f32⟩ : BufTy).Contents (Elt F)),
    unary main_arg4 main_v62 (broadcastInDim S1x2 ![1] bcast_S2_S1x2_1 : (⟨S2, .f32⟩ : BufTy).Contents (Elt F) → (⟨S1x2, .f32⟩ : BufTy).Contents (Elt F)),
    unary main_v62 main_v63 (broadcastInDim S50000x2 ![0, 1] bcast_S1x2_S50000x2_0_1 : (⟨S1x2, .f32⟩ : BufTy).Contents (Elt F) → (⟨S50000x2, .f32⟩ : BufTy).Contents (Elt F)),
    binary main_v61 main_v63 main_v64 (addf : (⟨S50000x2, .f32⟩ : BufTy).Contents (Elt F) → (⟨S50000x2, .f32⟩ : BufTy).Contents (Elt F) → (⟨S50000x2, .f32⟩ : BufTy).Contents (Elt F)) ]

/-- The embedding's rows at the two ends of every positive edge, and their differences. -/
abbrev posOps : List (HloOp τ sig (Elt F)) :=
  [ unary main_arg5 main_v65 ((extractStridedSlice S1x800000 ![0, 0] · slices_S2x800000_S1x800000_0_0) : (⟨S2x800000, .i32⟩ : BufTy).Contents (Elt F) → (⟨S1x800000, .i32⟩ : BufTy).Contents (Elt F)),
    reshape main_v65 main_v66 rfl shapeCasts_S1x800000_S800000,
    nullary main_c_12 (constantI S_ 32 0#32),
    unary main_c_12 main_v67 (broadcastInDim S800000 ![] bcast_S_S800000 : (⟨S_, .i32⟩ : BufTy).Contents (Elt F) → (⟨S800000, .i32⟩ : BufTy).Contents (Elt F)),
    binary main_v66 main_v67 main_v68 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v69 (broadcastInDim S800000 ![] bcast_S_S800000 : (⟨S_, .i32⟩ : BufTy).Contents (Elt F) → (⟨S800000, .i32⟩ : BufTy).Contents (Elt F)),
    binary main_v66 main_v69 main_v70 (addi : (⟨S800000, .i32⟩ : BufTy).Contents (Elt F) → (⟨S800000, .i32⟩ : BufTy).Contents (Elt F) → (⟨S800000, .i32⟩ : BufTy).Contents (Elt F)),
    ternary main_v68 main_v70 main_v66 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v71 main_v72 (broadcastInDim S800000x1 ![0] bcast_S800000_S800000x1_0 : (⟨S800000, .i32⟩ : BufTy).Contents (Elt F) → (⟨S800000x1, .i32⟩ : BufTy).Contents (Elt F)),
    binary main_v64 main_v72 main_v73 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    unary main_arg5 main_v74 ((extractStridedSlice S1x800000 ![1, 0] · slices_S2x800000_S1x800000_1_0) : (⟨S2x800000, .i32⟩ : BufTy).Contents (Elt F) → (⟨S1x800000, .i32⟩ : BufTy).Contents (Elt F)),
    reshape main_v74 main_v75 rfl shapeCasts_S1x800000_S800000,
    nullary main_c_14 (constantI S_ 32 0#32),
    unary main_c_14 main_v76 (broadcastInDim S800000 ![] bcast_S_S800000 : (⟨S_, .i32⟩ : BufTy).Contents (Elt F) → (⟨S800000, .i32⟩ : BufTy).Contents (Elt F)),
    binary main_v75 main_v76 main_v77 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v78 (broadcastInDim S800000 ![] bcast_S_S800000 : (⟨S_, .i32⟩ : BufTy).Contents (Elt F) → (⟨S800000, .i32⟩ : BufTy).Contents (Elt F)),
    binary main_v75 main_v78 main_v79 (addi : (⟨S800000, .i32⟩ : BufTy).Contents (Elt F) → (⟨S800000, .i32⟩ : BufTy).Contents (Elt F) → (⟨S800000, .i32⟩ : BufTy).Contents (Elt F)),
    ternary main_v77 main_v79 main_v75 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v80 main_v81 (broadcastInDim S800000x1 ![0] bcast_S800000_S800000x1_0 : (⟨S800000, .i32⟩ : BufTy).Contents (Elt F) → (⟨S800000x1, .i32⟩ : BufTy).Contents (Elt F)),
    binary main_v64 main_v81 main_v82 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    binary main_v73 main_v82 main_v83 (subf : (⟨S800000x2, .f32⟩ : BufTy).Contents (Elt F) → (⟨S800000x2, .f32⟩ : BufTy).Contents (Elt F) → (⟨S800000x2, .f32⟩ : BufTy).Contents (Elt F)) ]

/-- The embedding's rows at the two ends of every negative sample, and their differences. -/
abbrev negOps : List (HloOp τ sig (Elt F)) :=
  [ nullary main_c_16 (constantI S_ 32 0#32),
    unary main_c_16 main_v84 (broadcastInDim S800000 ![] bcast_S_S800000 : (⟨S_, .i32⟩ : BufTy).Contents (Elt F) → (⟨S800000, .i32⟩ : BufTy).Contents (Elt F)),
    binary main_arg6 main_v84 main_v85 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v86 (broadcastInDim S800000 ![] bcast_S_S800000 : (⟨S_, .i32⟩ : BufTy).Contents (Elt F) → (⟨S800000, .i32⟩ : BufTy).Contents (Elt F)),
    binary main_arg6 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_arg6 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v64 main_v89 main_v90 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    nullary main_c_18 (constantI S_ 32 0#32),
    unary main_c_18 main_v91 (broadcastInDim S800000 ![] bcast_S_S800000 : (⟨S_, .i32⟩ : BufTy).Contents (Elt F) → (⟨S800000, .i32⟩ : BufTy).Contents (Elt F)),
    binary main_arg7 main_v91 main_v92 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v93 (broadcastInDim S800000 ![] bcast_S_S800000 : (⟨S_, .i32⟩ : BufTy).Contents (Elt F) → (⟨S800000, .i32⟩ : BufTy).Contents (Elt F)),
    binary main_arg7 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_arg7 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v64 main_v96 main_v97 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    binary main_v90 main_v97 main_v98 (subf : (⟨S800000x2, .f32⟩ : BufTy).Contents (Elt F) → (⟨S800000x2, .f32⟩ : BufTy).Contents (Elt F) → (⟨S800000x2, .f32⟩ : BufTy).Contents (Elt F)) ]

/-- The squared lengths of the differences (a sum over the two coordinates), plus ε, their square roots, joined, raised to the power 2b, and 1 / (1 + a · that). -/
abbrev probOps : List (HloOp τ sig (Elt F)) :=
  [ binary main_v83 main_v83 main_v99 (mulf : (⟨S800000x2, .f32⟩ : BufTy).Contents (Elt F) → (⟨S800000x2, .f32⟩ : BufTy).Contents (Elt F) → (⟨S800000x2, .f32⟩ : BufTy).Contents (Elt F)),
    nullary main_cst_20 (constant S_ .f32 0x00000000#32),
    binary main_v99 main_cst_20 main_v100 ((fun x v => Host.reduceAdd x v reducesTo_S800000x2_S800000_d1 h_S_) : (⟨S800000x2, .f32⟩ : BufTy).Contents (Elt F) → (⟨S_, .f32⟩ : BufTy).Contents (Elt F) → (⟨S800000, .f32⟩ : BufTy).Contents (Elt F)),
    nullary main_cst_21 (constant S_ .f32 0x2B8CBCCC#32),
    unary main_cst_21 main_v101 (broadcastInDim S800000 ![] bcast_S_S800000 : (⟨S_, .f32⟩ : BufTy).Contents (Elt F) → (⟨S800000, .f32⟩ : BufTy).Contents (Elt F)),
    binary main_v100 main_v101 main_v102 (addf : (⟨S800000, .f32⟩ : BufTy).Contents (Elt F) → (⟨S800000, .f32⟩ : BufTy).Contents (Elt F) → (⟨S800000, .f32⟩ : BufTy).Contents (Elt F)),
    unary main_v102 main_v103 (Host.sqrt : (⟨S800000, .f32⟩ : BufTy).Contents (Elt F) → (⟨S800000, .f32⟩ : BufTy).Contents (Elt F)),
    binary main_v98 main_v98 main_v104 (mulf : (⟨S800000x2, .f32⟩ : BufTy).Contents (Elt F) → (⟨S800000x2, .f32⟩ : BufTy).Contents (Elt F) → (⟨S800000x2, .f32⟩ : BufTy).Contents (Elt F)),
    nullary main_cst_22 (constant S_ .f32 0x00000000#32),
    binary main_v104 main_cst_22 main_v105 ((fun x v => Host.reduceAdd x v reducesTo_S800000x2_S800000_d1 h_S_) : (⟨S800000x2, .f32⟩ : BufTy).Contents (Elt F) → (⟨S_, .f32⟩ : BufTy).Contents (Elt F) → (⟨S800000, .f32⟩ : BufTy).Contents (Elt F)),
    nullary main_cst_23 (constant S_ .f32 0x2B8CBCCC#32),
    unary main_cst_23 main_v106 (broadcastInDim S800000 ![] bcast_S_S800000 : (⟨S_, .f32⟩ : BufTy).Contents (Elt F) → (⟨S800000, .f32⟩ : BufTy).Contents (Elt F)),
    binary main_v105 main_v106 main_v107 (addf : (⟨S800000, .f32⟩ : BufTy).Contents (Elt F) → (⟨S800000, .f32⟩ : BufTy).Contents (Elt F) → (⟨S800000, .f32⟩ : BufTy).Contents (Elt F)),
    unary main_v107 main_v108 (Host.sqrt : (⟨S800000, .f32⟩ : BufTy).Contents (Elt F) → (⟨S800000, .f32⟩ : BufTy).Contents (Elt F)),
    binary main_v103 main_v108 main_v109 ((fun a b => concatenate S1600000 0 [⟨S800000, a⟩, ⟨S800000, b⟩] concatenates_S800000_S800000_S1600000_d0) : (⟨S800000, .f32⟩ : BufTy).Contents (Elt F) → (⟨S800000, .f32⟩ : BufTy).Contents (Elt F) → (⟨S1600000, .f32⟩ : BufTy).Contents (Elt F)),
    nullary main_cst_24 (constant S_ .f32 0x3FCA3D71#32),
    unary main_cst_24 main_v110 (broadcastInDim S1600000 ![] bcast_S_S1600000 : (⟨S_, .f32⟩ : BufTy).Contents (Elt F) → (⟨S1600000, .f32⟩ : BufTy).Contents (Elt F)),
    binary main_v109 main_v110 main_v111 (Host.powf : (⟨S1600000, .f32⟩ : BufTy).Contents (Elt F) → (⟨S1600000, .f32⟩ : BufTy).Contents (Elt F) → (⟨S1600000, .f32⟩ : BufTy).Contents (Elt F)),
    nullary main_cst_25 (constant S_ .f32 0x3E1BA5E3#32),
    unary main_cst_25 main_v112 (broadcastInDim S1600000 ![] bcast_S_S1600000 : (⟨S_, .f32⟩ : BufTy).Contents (Elt F) → (⟨S1600000, .f32⟩ : BufTy).Contents (Elt F)),
    binary main_v112 main_v111 main_v113 (mulf : (⟨S1600000, .f32⟩ : BufTy).Contents (Elt F) → (⟨S1600000, .f32⟩ : BufTy).Contents (Elt F) → (⟨S1600000, .f32⟩ : BufTy).Contents (Elt F)),
    nullary main_cst_26 (constant S_ .f32 0x3F800000#32),
    unary main_cst_26 main_v114 (broadcastInDim S1600000 ![] bcast_S_S1600000 : (⟨S_, .f32⟩ : BufTy).Contents (Elt F) → (⟨S1600000, .f32⟩ : BufTy).Contents (Elt F)),
    binary main_v114 main_v113 main_v115 (addf : (⟨S1600000, .f32⟩ : BufTy).Contents (Elt F) → (⟨S1600000, .f32⟩ : BufTy).Contents (Elt F) → (⟨S1600000, .f32⟩ : BufTy).Contents (Elt F)),
    nullary main_cst_27 (constant S_ .f32 0x3F800000#32),
    unary main_cst_27 main_v116 (broadcastInDim S1600000 ![] bcast_S_S1600000 : (⟨S_, .f32⟩ : BufTy).Contents (Elt F) → (⟨S1600000, .f32⟩ : BufTy).Contents (Elt F)),
    binary main_v116 main_v115 main_v117 (Host.divf : (⟨S1600000, .f32⟩ : BufTy).Contents (Elt F) → (⟨S1600000, .f32⟩ : BufTy).Contents (Elt F) → (⟨S1600000, .f32⟩ : BufTy).Contents (Elt F)) ]

/-- The whole program's operations, in order. -/
abbrev ops : List (HloOp τ sig (Elt F)) :=
  [ nullary main_v0 (iotaInDim S50000 32 0),
    unary main_arg5 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg5 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v3 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg0 main_arg1 main_v30 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x64 ![0, 1] bcast_S850000x1_S850000x64_0_1 : (⟨S850000x1, .f32⟩ : BufTy).Contents (Elt F) → (⟨S850000x64, .f32⟩ : BufTy).Contents (Elt F)),
    binary main_v37 main_v39 main_v40 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v3 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg2 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v46) (TRef.of (T := ⟨S50000x64, .f32⟩) main_call1_v0) (TRef.of (T := ⟨S50000x64, .f32⟩) main_v47) maximumf,
    binary main_v47 main_arg3 main_v48 ((fun l r => Host.dotGeneral dot_S50000x64_S64x2_S50000x2_1_0_0_1_n_n none l r) : (⟨S50000x64, .f32⟩ : BufTy).Contents (Elt F) → (⟨S64x2, .f32⟩ : BufTy).Contents (Elt F) → (⟨S50000x2, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v6 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v6 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v6 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x2_S850000x1_S850000x2_1_0_n_n_0_1_12 x i) : (⟨S50000x2, .f32⟩ : BufTy).Contents (Elt F) → (⟨S850000x1, .i32⟩ : BufTy).Contents (Elt F) → (⟨S850000x2, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x2 ![0, 1] bcast_S850000x1_S850000x2_0_1 : (⟨S850000x1, .f32⟩ : BufTy).Contents (Elt F) → (⟨S850000x2, .f32⟩ : BufTy).Contents (Elt F)),
    binary main_v55 main_v57 main_v58 (mulf : (⟨S850000x2, .f32⟩ : BufTy).Contents (Elt F) → (⟨S850000x2, .f32⟩ : BufTy).Contents (Elt F) → (⟨S850000x2, .f32⟩ : BufTy).Contents (Elt F)),
    nullary main_cst_11 (constant S_ .f32 0x00000000#32),
    unary main_cst_11 main_v59 (broadcastInDim S50000x2 ![] bcast_S_S50000x2 : (⟨S_, .f32⟩ : BufTy).Contents (Elt F) → (⟨S50000x2, .f32⟩ : BufTy).Contents (Elt F)),
    unary main_v3 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x2_S850000x1_S850000x2_1_0_0_1 x i u) : (⟨S50000x2, .f32⟩ : BufTy).Contents (Elt F) → (⟨S850000x1, .i32⟩ : BufTy).Contents (Elt F) → (⟨S850000x2, .f32⟩ : BufTy).Contents (Elt F) → (⟨S50000x2, .f32⟩ : BufTy).Contents (Elt F)),
    unary main_arg4 main_v62 (broadcastInDim S1x2 ![1] bcast_S2_S1x2_1 : (⟨S2, .f32⟩ : BufTy).Contents (Elt F) → (⟨S1x2, .f32⟩ : BufTy).Contents (Elt F)),
    unary main_v62 main_v63 (broadcastInDim S50000x2 ![0, 1] bcast_S1x2_S50000x2_0_1 : (⟨S1x2, .f32⟩ : BufTy).Contents (Elt F) → (⟨S50000x2, .f32⟩ : BufTy).Contents (Elt F)),
    binary main_v61 main_v63 main_v64 (addf : (⟨S50000x2, .f32⟩ : BufTy).Contents (Elt F) → (⟨S50000x2, .f32⟩ : BufTy).Contents (Elt F) → (⟨S50000x2, .f32⟩ : BufTy).Contents (Elt F)),
    unary main_arg5 main_v65 ((extractStridedSlice S1x800000 ![0, 0] · slices_S2x800000_S1x800000_0_0) : (⟨S2x800000, .i32⟩ : BufTy).Contents (Elt F) → (⟨S1x800000, .i32⟩ : BufTy).Contents (Elt F)),
    reshape main_v65 main_v66 rfl shapeCasts_S1x800000_S800000,
    nullary main_c_12 (constantI S_ 32 0#32),
    unary main_c_12 main_v67 (broadcastInDim S800000 ![] bcast_S_S800000 : (⟨S_, .i32⟩ : BufTy).Contents (Elt F) → (⟨S800000, .i32⟩ : BufTy).Contents (Elt F)),
    binary main_v66 main_v67 main_v68 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v69 (broadcastInDim S800000 ![] bcast_S_S800000 : (⟨S_, .i32⟩ : BufTy).Contents (Elt F) → (⟨S800000, .i32⟩ : BufTy).Contents (Elt F)),
    binary main_v66 main_v69 main_v70 (addi : (⟨S800000, .i32⟩ : BufTy).Contents (Elt F) → (⟨S800000, .i32⟩ : BufTy).Contents (Elt F) → (⟨S800000, .i32⟩ : BufTy).Contents (Elt F)),
    ternary main_v68 main_v70 main_v66 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v71 main_v72 (broadcastInDim S800000x1 ![0] bcast_S800000_S800000x1_0 : (⟨S800000, .i32⟩ : BufTy).Contents (Elt F) → (⟨S800000x1, .i32⟩ : BufTy).Contents (Elt F)),
    binary main_v64 main_v72 main_v73 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    unary main_arg5 main_v74 ((extractStridedSlice S1x800000 ![1, 0] · slices_S2x800000_S1x800000_1_0) : (⟨S2x800000, .i32⟩ : BufTy).Contents (Elt F) → (⟨S1x800000, .i32⟩ : BufTy).Contents (Elt F)),
    reshape main_v74 main_v75 rfl shapeCasts_S1x800000_S800000,
    nullary main_c_14 (constantI S_ 32 0#32),
    unary main_c_14 main_v76 (broadcastInDim S800000 ![] bcast_S_S800000 : (⟨S_, .i32⟩ : BufTy).Contents (Elt F) → (⟨S800000, .i32⟩ : BufTy).Contents (Elt F)),
    binary main_v75 main_v76 main_v77 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v78 (broadcastInDim S800000 ![] bcast_S_S800000 : (⟨S_, .i32⟩ : BufTy).Contents (Elt F) → (⟨S800000, .i32⟩ : BufTy).Contents (Elt F)),
    binary main_v75 main_v78 main_v79 (addi : (⟨S800000, .i32⟩ : BufTy).Contents (Elt F) → (⟨S800000, .i32⟩ : BufTy).Contents (Elt F) → (⟨S800000, .i32⟩ : BufTy).Contents (Elt F)),
    ternary main_v77 main_v79 main_v75 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v80 main_v81 (broadcastInDim S800000x1 ![0] bcast_S800000_S800000x1_0 : (⟨S800000, .i32⟩ : BufTy).Contents (Elt F) → (⟨S800000x1, .i32⟩ : BufTy).Contents (Elt F)),
    binary main_v64 main_v81 main_v82 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    binary main_v73 main_v82 main_v83 (subf : (⟨S800000x2, .f32⟩ : BufTy).Contents (Elt F) → (⟨S800000x2, .f32⟩ : BufTy).Contents (Elt F) → (⟨S800000x2, .f32⟩ : BufTy).Contents (Elt F)),
    nullary main_c_16 (constantI S_ 32 0#32),
    unary main_c_16 main_v84 (broadcastInDim S800000 ![] bcast_S_S800000 : (⟨S_, .i32⟩ : BufTy).Contents (Elt F) → (⟨S800000, .i32⟩ : BufTy).Contents (Elt F)),
    binary main_arg6 main_v84 main_v85 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v86 (broadcastInDim S800000 ![] bcast_S_S800000 : (⟨S_, .i32⟩ : BufTy).Contents (Elt F) → (⟨S800000, .i32⟩ : BufTy).Contents (Elt F)),
    binary main_arg6 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_arg6 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v64 main_v89 main_v90 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    nullary main_c_18 (constantI S_ 32 0#32),
    unary main_c_18 main_v91 (broadcastInDim S800000 ![] bcast_S_S800000 : (⟨S_, .i32⟩ : BufTy).Contents (Elt F) → (⟨S800000, .i32⟩ : BufTy).Contents (Elt F)),
    binary main_arg7 main_v91 main_v92 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v93 (broadcastInDim S800000 ![] bcast_S_S800000 : (⟨S_, .i32⟩ : BufTy).Contents (Elt F) → (⟨S800000, .i32⟩ : BufTy).Contents (Elt F)),
    binary main_arg7 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_arg7 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v64 main_v96 main_v97 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    binary main_v90 main_v97 main_v98 (subf : (⟨S800000x2, .f32⟩ : BufTy).Contents (Elt F) → (⟨S800000x2, .f32⟩ : BufTy).Contents (Elt F) → (⟨S800000x2, .f32⟩ : BufTy).Contents (Elt F)),
    binary main_v83 main_v83 main_v99 (mulf : (⟨S800000x2, .f32⟩ : BufTy).Contents (Elt F) → (⟨S800000x2, .f32⟩ : BufTy).Contents (Elt F) → (⟨S800000x2, .f32⟩ : BufTy).Contents (Elt F)),
    nullary main_cst_20 (constant S_ .f32 0x00000000#32),
    binary main_v99 main_cst_20 main_v100 ((fun x v => Host.reduceAdd x v reducesTo_S800000x2_S800000_d1 h_S_) : (⟨S800000x2, .f32⟩ : BufTy).Contents (Elt F) → (⟨S_, .f32⟩ : BufTy).Contents (Elt F) → (⟨S800000, .f32⟩ : BufTy).Contents (Elt F)),
    nullary main_cst_21 (constant S_ .f32 0x2B8CBCCC#32),
    unary main_cst_21 main_v101 (broadcastInDim S800000 ![] bcast_S_S800000 : (⟨S_, .f32⟩ : BufTy).Contents (Elt F) → (⟨S800000, .f32⟩ : BufTy).Contents (Elt F)),
    binary main_v100 main_v101 main_v102 (addf : (⟨S800000, .f32⟩ : BufTy).Contents (Elt F) → (⟨S800000, .f32⟩ : BufTy).Contents (Elt F) → (⟨S800000, .f32⟩ : BufTy).Contents (Elt F)),
    unary main_v102 main_v103 (Host.sqrt : (⟨S800000, .f32⟩ : BufTy).Contents (Elt F) → (⟨S800000, .f32⟩ : BufTy).Contents (Elt F)),
    binary main_v98 main_v98 main_v104 (mulf : (⟨S800000x2, .f32⟩ : BufTy).Contents (Elt F) → (⟨S800000x2, .f32⟩ : BufTy).Contents (Elt F) → (⟨S800000x2, .f32⟩ : BufTy).Contents (Elt F)),
    nullary main_cst_22 (constant S_ .f32 0x00000000#32),
    binary main_v104 main_cst_22 main_v105 ((fun x v => Host.reduceAdd x v reducesTo_S800000x2_S800000_d1 h_S_) : (⟨S800000x2, .f32⟩ : BufTy).Contents (Elt F) → (⟨S_, .f32⟩ : BufTy).Contents (Elt F) → (⟨S800000, .f32⟩ : BufTy).Contents (Elt F)),
    nullary main_cst_23 (constant S_ .f32 0x2B8CBCCC#32),
    unary main_cst_23 main_v106 (broadcastInDim S800000 ![] bcast_S_S800000 : (⟨S_, .f32⟩ : BufTy).Contents (Elt F) → (⟨S800000, .f32⟩ : BufTy).Contents (Elt F)),
    binary main_v105 main_v106 main_v107 (addf : (⟨S800000, .f32⟩ : BufTy).Contents (Elt F) → (⟨S800000, .f32⟩ : BufTy).Contents (Elt F) → (⟨S800000, .f32⟩ : BufTy).Contents (Elt F)),
    unary main_v107 main_v108 (Host.sqrt : (⟨S800000, .f32⟩ : BufTy).Contents (Elt F) → (⟨S800000, .f32⟩ : BufTy).Contents (Elt F)),
    binary main_v103 main_v108 main_v109 ((fun a b => concatenate S1600000 0 [⟨S800000, a⟩, ⟨S800000, b⟩] concatenates_S800000_S800000_S1600000_d0) : (⟨S800000, .f32⟩ : BufTy).Contents (Elt F) → (⟨S800000, .f32⟩ : BufTy).Contents (Elt F) → (⟨S1600000, .f32⟩ : BufTy).Contents (Elt F)),
    nullary main_cst_24 (constant S_ .f32 0x3FCA3D71#32),
    unary main_cst_24 main_v110 (broadcastInDim S1600000 ![] bcast_S_S1600000 : (⟨S_, .f32⟩ : BufTy).Contents (Elt F) → (⟨S1600000, .f32⟩ : BufTy).Contents (Elt F)),
    binary main_v109 main_v110 main_v111 (Host.powf : (⟨S1600000, .f32⟩ : BufTy).Contents (Elt F) → (⟨S1600000, .f32⟩ : BufTy).Contents (Elt F) → (⟨S1600000, .f32⟩ : BufTy).Contents (Elt F)),
    nullary main_cst_25 (constant S_ .f32 0x3E1BA5E3#32),
    unary main_cst_25 main_v112 (broadcastInDim S1600000 ![] bcast_S_S1600000 : (⟨S_, .f32⟩ : BufTy).Contents (Elt F) → (⟨S1600000, .f32⟩ : BufTy).Contents (Elt F)),
    binary main_v112 main_v111 main_v113 (mulf : (⟨S1600000, .f32⟩ : BufTy).Contents (Elt F) → (⟨S1600000, .f32⟩ : BufTy).Contents (Elt F) → (⟨S1600000, .f32⟩ : BufTy).Contents (Elt F)),
    nullary main_cst_26 (constant S_ .f32 0x3F800000#32),
    unary main_cst_26 main_v114 (broadcastInDim S1600000 ![] bcast_S_S1600000 : (⟨S_, .f32⟩ : BufTy).Contents (Elt F) → (⟨S1600000, .f32⟩ : BufTy).Contents (Elt F)),
    binary main_v114 main_v113 main_v115 (addf : (⟨S1600000, .f32⟩ : BufTy).Contents (Elt F) → (⟨S1600000, .f32⟩ : BufTy).Contents (Elt F) → (⟨S1600000, .f32⟩ : BufTy).Contents (Elt F)),
    nullary main_cst_27 (constant S_ .f32 0x3F800000#32),
    unary main_cst_27 main_v116 (broadcastInDim S1600000 ![] bcast_S_S1600000 : (⟨S_, .f32⟩ : BufTy).Contents (Elt F) → (⟨S1600000, .f32⟩ : BufTy).Contents (Elt F)),
    binary main_v116 main_v115 main_v117 (Host.divf : (⟨S1600000, .f32⟩ : BufTy).Contents (Elt F) → (⟨S1600000, .f32⟩ : BufTy).Contents (Elt F) → (⟨S1600000, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩

set_option maxRecDepth 8192 in
/-- The list is its eight stretches, in order. -/
theorem ops_split : (ops : List (HloOp τ sig (Elt F))) = normOps ++ (firstDot ++ (firstLayerOps ++ (secondDot ++ (secondLayerOps ++ (posOps ++ (negOps ++ probOps)))))) := rfl

variable (m : (ℓ : Loc nD τ sig) → Buf (Elt F) ℓ) (c : Dev nD)

/-- The buffer contents after the normalisation stretch. -/
def afterNorm : Valuation τ sig (Elt F) := after normOps (launchContents m c)
/-- … after the first dense product. -/
def afterFirstDot : Valuation τ sig (Elt F) := after firstDot (afterNorm m c)
/-- … after the first layer. -/
def afterFirstLayer : Valuation τ sig (Elt F) := after firstLayerOps (afterFirstDot m c)
/-- … after the second dense product. -/
def afterSecondDot : Valuation τ sig (Elt F) := after secondDot (afterFirstLayer m c)
/-- … after the second layer: the embedding is there. -/
def afterSecondLayer : Valuation τ sig (Elt F) := after secondLayerOps (afterSecondDot m c)
/-- … after the differences over the positive edges. -/
def afterPos : Valuation τ sig (Elt F) := after posOps (afterSecondLayer m c)
/-- … after the differences over the negative samples. -/
def afterNeg : Valuation τ sig (Elt F) := after negOps (afterPos m c)
/-- … at the end. -/
def atEnd : Valuation τ sig (Elt F) := after probOps (afterNeg m c)

theorem after_ops : after ops (launchContents m c) = atEnd m c := by
  unfold atEnd afterNeg afterPos afterSecondLayer afterSecondDot afterFirstLayer afterFirstDot afterNorm
  rw [ops_split, after_append, after_append, after_append, after_append, after_append, after_append, after_append]

/-- On every device, from any memory with zero counters: every weakly fair execution of the reference terminates
    with every buffer at the fold of the eight stretches over its launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = atEnd m c (Proc.devRef .tc b) :=
  (θ_run defs _ _).mono (fun _ h c b => (h c b).trans (congrFun (after_ops m c) _))
    (run_seq scopedRefs_eq scopedSems_eq defs main (fun _ => ops) main_eq (fun _ => ops_sub) m ρ)

end Cert.ReferenceIdeal.Whole

end
-- ==== Proof.ReferenceArguments.lean ====
/-
  No operation of the reference writes an argument array: read through the eight stretches, each argument's buffer ends
  at its launch contents.
-/
import proofs.«163118_j47777216201257_1_alg».proof.Proof.ReferenceRun

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F] (m : (ℓ : Loc nD τ sig) → Buf (Elt F) ℓ) (c : Dev nD)

set_option maxHeartbeats 16000000 in
theorem atEnd_arg0 : atEnd m c (Proc.devRef .tc main_arg0) = m ((c.tc : Thread nD τ).loc main_arg0) := by
  unfold atEnd afterNeg afterPos afterSecondLayer afterSecondDot afterFirstLayer afterFirstDot afterNorm
  dsimp only [probOps, negOps, posOps, secondLayerOps, secondDot, firstLayerOps, firstDot, normOps]
  after_results_simp

set_option maxHeartbeats 16000000 in
theorem atEnd_arg1 : atEnd m c (Proc.devRef .tc main_arg1) = m ((c.tc : Thread nD τ).loc main_arg1) := by
  unfold atEnd afterNeg afterPos afterSecondLayer afterSecondDot afterFirstLayer afterFirstDot afterNorm
  dsimp only [probOps, negOps, posOps, secondLayerOps, secondDot, firstLayerOps, firstDot, normOps]
  after_results_simp

set_option maxHeartbeats 16000000 in
theorem atEnd_arg2 : atEnd m c (Proc.devRef .tc main_arg2) = m ((c.tc : Thread nD τ).loc main_arg2) := by
  unfold atEnd afterNeg afterPos afterSecondLayer afterSecondDot afterFirstLayer afterFirstDot afterNorm
  dsimp only [probOps, negOps, posOps, secondLayerOps, secondDot, firstLayerOps, firstDot, normOps]
  after_results_simp

set_option maxHeartbeats 16000000 in
theorem atEnd_arg3 : atEnd m c (Proc.devRef .tc main_arg3) = m ((c.tc : Thread nD τ).loc main_arg3) := by
  unfold atEnd afterNeg afterPos afterSecondLayer afterSecondDot afterFirstLayer afterFirstDot afterNorm
  dsimp only [probOps, negOps, posOps, secondLayerOps, secondDot, firstLayerOps, firstDot, normOps]
  after_results_simp

set_option maxHeartbeats 16000000 in
theorem atEnd_arg4 : atEnd m c (Proc.devRef .tc main_arg4) = m ((c.tc : Thread nD τ).loc main_arg4) := by
  unfold atEnd afterNeg afterPos afterSecondLayer afterSecondDot afterFirstLayer afterFirstDot afterNorm
  dsimp only [probOps, negOps, posOps, secondLayerOps, secondDot, firstLayerOps, firstDot, normOps]
  after_results_simp

set_option maxHeartbeats 16000000 in
theorem atEnd_arg5 : atEnd m c (Proc.devRef .tc main_arg5) = m ((c.tc : Thread nD τ).loc main_arg5) := by
  unfold atEnd afterNeg afterPos afterSecondLayer afterSecondDot afterFirstLayer afterFirstDot afterNorm
  dsimp only [probOps, negOps, posOps, secondLayerOps, secondDot, firstLayerOps, firstDot, normOps]
  after_results_simp

set_option maxHeartbeats 16000000 in
theorem atEnd_arg6 : atEnd m c (Proc.devRef .tc main_arg6) = m ((c.tc : Thread nD τ).loc main_arg6) := by
  unfold atEnd afterNeg afterPos afterSecondLayer afterSecondDot afterFirstLayer afterFirstDot afterNorm
  dsimp only [probOps, negOps, posOps, secondLayerOps, secondDot, firstLayerOps, firstDot, normOps]
  after_results_simp

set_option maxHeartbeats 16000000 in
theorem atEnd_arg7 : atEnd m c (Proc.devRef .tc main_arg7) = m ((c.tc : Thread nD τ).loc main_arg7) := by
  unfold atEnd afterNeg afterPos afterSecondLayer afterSecondDot afterFirstLayer afterFirstDot afterNorm
  dsimp only [probOps, negOps, posOps, secondLayerOps, secondDot, firstLayerOps, firstDot, normOps]
  after_results_simp

set_option maxHeartbeats 16000000 in
/-- Nothing after the second layer writes the embedding: the first result is the embedding the second layer left. -/
theorem atEnd_emb : atEnd m c (Proc.devRef .tc main_v64) = afterSecondLayer m c (Proc.devRef .tc main_v64) := by
  unfold atEnd afterNeg afterPos
  dsimp only [probOps, negOps, posOps]
  after_results_simp

set_option maxHeartbeats 16000000 in
/-- Argument 5 passes through the second layer. -/
theorem secondLayer_arg5 : afterSecondLayer m c (Proc.devRef .tc main_arg5) = afterSecondDot m c (Proc.devRef .tc main_arg5) := by
  unfold afterSecondLayer
  dsimp only [secondLayerOps]
  after_results_simp

set_option maxHeartbeats 16000000 in
/-- Argument 6 passes through the second layer. -/
theorem secondLayer_arg6 : afterSecondLayer m c (Proc.devRef .tc main_arg6) = afterSecondDot m c (Proc.devRef .tc main_arg6) := by
  unfold afterSecondLayer
  dsimp only [secondLayerOps]
  after_results_simp

set_option maxHeartbeats 16000000 in
/-- Argument 7 passes through the second layer. -/
theorem secondLayer_arg7 : afterSecondLayer m c (Proc.devRef .tc main_arg7) = afterSecondDot m c (Proc.devRef .tc main_arg7) := by
  unfold afterSecondLayer
  dsimp only [secondLayerOps]
  after_results_simp

set_option maxHeartbeats 16000000 in
/-- The positive differences pass through the negative-sample stretch. -/
theorem afterNeg_pos : afterNeg m c (Proc.devRef .tc main_v83) = afterPos m c (Proc.devRef .tc main_v83) := by
  unfold afterNeg
  dsimp only [negOps]
  after_results_simp

set_option maxHeartbeats 16000000 in
/-- The embedding passes through the positive-edge stretch. -/
theorem afterPos_emb : afterPos m c (Proc.devRef .tc main_v64) = afterSecondLayer m c (Proc.devRef .tc main_v64) := by
  unfold afterPos
  dsimp only [posOps]
  after_results_simp

set_option maxHeartbeats 16000000 in
theorem afterPos_arg6 : afterPos m c (Proc.devRef .tc main_arg6) = afterSecondLayer m c (Proc.devRef .tc main_arg6) := by
  unfold afterPos
  dsimp only [posOps]
  after_results_simp

set_option maxHeartbeats 16000000 in
theorem afterPos_arg7 : afterPos m c (Proc.devRef .tc main_arg7) = afterSecondLayer m c (Proc.devRef .tc main_arg7) := by
  unfold afterPos
  dsimp only [posOps]
  after_results_simp

end Cert.ReferenceIdeal.Whole

end
-- ==== Proof.FirstProduct.lean ====
/-
  The first pipelined region multiplies the node features (50000 × 128) by the first layer's weights (128 × 64) on
  the matrix unit, 10000 rows of the product per grid point. Read at the extended reals the matrix unit's
  contraction into a zero accumulator is the plain sum of products, so each grid point writes back 10000 whole rows
  of ONE matrix product, and the five blocks tile the result: after the region the result array holds the product
  of the two operand arrays.
-/
import proofs.«163118_j47777216201257_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## The product, entry by entry -/

/-- The left factor's entry that meets row `i 0` of the product at the contracted coordinate `k`. -/
abbrev featRow (i : S50000x64.Idx) (k : Fin 128) : S50000x128.Idx := fun a => match a with
  | ⟨0, _⟩ => ⟨(i 0).val, (i 0).isLt⟩
  | ⟨1, _⟩ => ⟨k.val, k.isLt⟩
/-- The right factor's entry that meets column `i 1` of the product at the contracted coordinate `k`. -/
abbrev weightCol1 (i : S50000x64.Idx) (k : Fin 128) : S128x64.Idx := fun a => match a with
  | ⟨0, _⟩ => ⟨k.val, k.isLt⟩
  | ⟨1, _⟩ => ⟨(i 1).val, (i 1).isLt⟩

/-- The 50000 × 64 product of a 50000 × 128 matrix and a 128 × 64 matrix over the extended reals:
    entry (p, q) is the sum over k of A (p, k) · B (k, q). -/
def featProduct (A : S50000x128.Idx → EReal) (B : S128x64.Idx → EReal) : S50000x64.Idx → EReal :=
  fun i => ∑ k : Fin 128, A (featRow i k) * B (weightCol1 i k)

/-! ## One grid point's block: 10000 rows of the product -/

abbrev featBlockRow (j : S10000x64.Idx) (k : Fin 128) : S10000x128.Idx := fun a => match a with
  | ⟨0, _⟩ => ⟨(j 0).val, (j 0).isLt⟩
  | ⟨1, _⟩ => ⟨k.val, k.isLt⟩
abbrev weightBlockCol1 (j : S10000x64.Idx) (k : Fin 128) : S128x64.Idx := fun a => match a with
  | ⟨0, _⟩ => ⟨k.val, k.isLt⟩
  | ⟨1, _⟩ => ⟨(j 1).val, (j 1).isLt⟩

/-- The body's one store holds, at (p, q) of the block, the sum over k of the left block at (p, k) times the
    right operand at (k, q): the matrix unit's contraction into a zero accumulator, the contraction's one axis
    re-indexed by its coordinate. -/
theorem k0_pay1_apply (x0 : Vec Ideal S10000x128 .bf16) (x1 : Vec Ideal S128x64 .bf16) (j : S10000x64.Idx) :
    k0_pay1 (F := Ideal) x0 x1 j = ∑ k : Fin 128, x0 (featBlockRow j k) * x1 (weightBlockCol1 j k) := by
  unfold k0_pay1
  rw [shapeCast_self, shapeCast_self]
  refine (Ideal.matmul_constant_zero_apply (φ₁ := .bf16) (φ₂ := .bf16) dot_S10000x128_S128x64_S10000x64_1_0_0_1_n_n none x0 x1 j).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx j ((contrEquiv1 dot_S10000x128_S128x64_S10000x64_1_0_0_1_n_n 128 rfl rfl).symm k) = featBlockRow j k := funext fun a => Fin.ext (by
    match a with
    | ⟨0, _⟩ =>
      show (dot_S10000x128_S128x64_S10000x64_1_0_0_1_n_n.lhsIdx j _ 0).val = (j 0).val
      unfold DotDims.lhsIdx
      rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
      rfl
    | ⟨1, _⟩ => exact (dot_S10000x128_S128x64_S10000x64_1_0_0_1_n_n.lhsIdx_val_of_single rfl j _).trans hk)
  have er : dot_S10000x128_S128x64_S10000x64_1_0_0_1_n_n.rhsIdx j ((contrEquiv1 dot_S10000x128_S128x64_S10000x64_1_0_0_1_n_n 128 rfl rfl).symm k) = weightBlockCol1 j k := funext fun a => Fin.ext (by
    match a with
    | ⟨0, _⟩ => exact (dot_S10000x128_S128x64_S10000x64_1_0_0_1_n_n.rhsIdx_val_of_single rfl j _).trans hk
    | ⟨1, _⟩ =>
      show (dot_S10000x128_S128x64_S10000x64_1_0_0_1_n_n.rhsIdx j _ 1).val = (j 1).val
      unfold DotDims.rhsIdx
      rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
      rfl)
  rw [el, er]

/-! ## From the blocks to the array -/

theorem zero_offsets1 : (![0, 0] : Fin 2 → Nat) = fun _ => 0 := funext fun a => by fin_cases a <;> rfl

/-- The index maps over the grid: the left operand's block and the result's block move together down the rows,
    the right operand is one whole block, and there is one block across the columns. -/
theorem block_indices1 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the five row blocks is some grid point's. -/
theorem block_onto1 : ∀ q0 : Fin 5, ∃ t : Fin cfg0.N, win0_2.index t = ![q0.val, 0] :=
  (by decide +kernel : ∀ q0 : Fin 5, ∃ t : Fin grid0.N, win0_2.index t = ![q0.val, 0])

/-- What grid point `t` writes back is block `t` of the product of the two operand arrays as the region finds them:
    row p of the block is row (block index · 10000 + p) of the left array, and the right array is read whole. -/
theorem flushed1_eq (c : Dev nD) (t : Fin cfg0.N) :
    (dat0 V c).flushed 2 t = ((cfg0.win 2).blk t).view.read (Elt Ideal) (featProduct (V c main_v30) (V c main_v31)) := by
  show (cfg0.win 2).cut (grid0.coords t) ((dat0 V c).after 2 t) = _
  rw [after0_2]
  unfold out0_2
  rw [View.canon_unit_zero zero_offsets1]
  simp only [View.ld_unit_zero (S := S10000x128) zero_offsets1, View.ld_unit_zero (S := S128x64) zero_offsets1]
  obtain ⟨e0, e1, e2, e3, e4⟩ := block_indices1 t
  funext j
  show k0_pay1 (iblk0 V c 0 t) (iblk0 V c 1 t) j = featProduct (V c main_v30) (V c main_v31) (((cfg0.win 2).blk t).view.emb j)
  refine (k0_pay1_apply (iblk0 V c 0 t) (iblk0 V c 1 t) j).trans ?_
  unfold featProduct
  refine Finset.sum_congr rfl fun k _ => ?_
  have h0 : iblk0 V c 0 t (featBlockRow j k) = V c main_v30 (featRow (((cfg0.win 2).blk t).view.emb j) k) := by
    show V c main_v30 (((cfg0.win 0).blk t).view.emb (featBlockRow j k)) = _
    refine congrArg (V c main_v30) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : iblk0 V c 1 t (weightBlockCol1 j k) = V c main_v31 (weightCol1 (((cfg0.win 2).blk t).view.emb j) k) := by
    show V c main_v31 (((cfg0.win 1).blk t).view.emb (weightBlockCol1 j k)) = _
    refine congrArg (V c main_v31) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-- An index of the result array lies in point `t`'s block iff each coordinate lies in the block's range. -/
theorem mem_block1 (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The five row blocks tile the result: row r is in block r / 10000. -/
theorem covered1 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := block_onto1 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block1]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the result array holds the whole product of the two operand arrays as the region found them. -/
theorem product1_array (c : Dev nD) : (dat0 V c).arrAt 2 cfg0.N = featProduct (V c main_v30) (V c main_v31) :=
  (dat0 V c).arrAt_eq_of_cover 2 _ (fun t _ => flushed1_eq V c t) covered1

end Cert.KernelIdeal.Whole

end
-- ==== Proof.SecondProduct.lean ====
/-
  The second pipelined region multiplies the hidden features (50000 × 64) by the second layer's weights (64 × 2) on
  the matrix unit, 10000 rows of the product per grid point; as in the first region, after it the result array holds
  the whole product of the two operand arrays.
-/
import proofs.«163118_j47777216201257_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## The product, entry by entry -/

/-- The left factor's entry that meets row `i 0` of the product at the contracted coordinate `k`. -/
abbrev hiddenRow (i : S50000x2.Idx) (k : Fin 64) : S50000x64.Idx := fun a => match a with
  | ⟨0, _⟩ => ⟨(i 0).val, (i 0).isLt⟩
  | ⟨1, _⟩ => ⟨k.val, k.isLt⟩
/-- The right factor's entry that meets column `i 1` of the product at the contracted coordinate `k`. -/
abbrev weightCol2 (i : S50000x2.Idx) (k : Fin 64) : S64x2.Idx := fun a => match a with
  | ⟨0, _⟩ => ⟨k.val, k.isLt⟩
  | ⟨1, _⟩ => ⟨(i 1).val, (i 1).isLt⟩

/-- The 50000 × 2 product of a 50000 × 64 matrix and a 64 × 2 matrix over the extended reals:
    entry (p, q) is the sum over k of A (p, k) · B (k, q). -/
def hiddenProduct (A : S50000x64.Idx → EReal) (B : S64x2.Idx → EReal) : S50000x2.Idx → EReal :=
  fun i => ∑ k : Fin 64, A (hiddenRow i k) * B (weightCol2 i k)

/-! ## One grid point's block: 10000 rows of the product -/

abbrev hiddenBlockRow (j : S10000x2.Idx) (k : Fin 64) : S10000x64.Idx := fun a => match a with
  | ⟨0, _⟩ => ⟨(j 0).val, (j 0).isLt⟩
  | ⟨1, _⟩ => ⟨k.val, k.isLt⟩
abbrev weightBlockCol2 (j : S10000x2.Idx) (k : Fin 64) : S64x2.Idx := fun a => match a with
  | ⟨0, _⟩ => ⟨k.val, k.isLt⟩
  | ⟨1, _⟩ => ⟨(j 1).val, (j 1).isLt⟩

/-- The body's one store holds, at (p, q) of the block, the sum over k of the left block at (p, k) times the
    right operand at (k, q): the matrix unit's contraction into a zero accumulator, the contraction's one axis
    re-indexed by its coordinate. -/
theorem k1_pay1_apply (x0 : Vec Ideal S10000x64 .bf16) (x1 : Vec Ideal S64x2 .bf16) (j : S10000x2.Idx) :
    k1_pay1 (F := Ideal) x0 x1 j = ∑ k : Fin 64, x0 (hiddenBlockRow j k) * x1 (weightBlockCol2 j k) := by
  unfold k1_pay1
  rw [shapeCast_self, shapeCast_self]
  refine (Ideal.matmul_constant_zero_apply (φ₁ := .bf16) (φ₂ := .bf16) dot_S10000x64_S64x2_S10000x2_1_0_0_1_n_n none x0 x1 j).trans ?_
  rw [← Equiv.sum_comp (contrEquiv1 dot_S10000x64_S64x2_S10000x2_1_0_0_1_n_n 64 rfl rfl).symm]
  refine Finset.sum_congr rfl fun k _ => ?_
  have hk := contrEquiv1_symm_val dot_S10000x64_S64x2_S10000x2_1_0_0_1_n_n 64 rfl rfl k
  have el : dot_S10000x64_S64x2_S10000x2_1_0_0_1_n_n.lhsIdx j ((contrEquiv1 dot_S10000x64_S64x2_S10000x2_1_0_0_1_n_n 64 rfl rfl).symm k) = hiddenBlockRow j k := funext fun a => Fin.ext (by
    match a with
    | ⟨0, _⟩ =>
      show (dot_S10000x64_S64x2_S10000x2_1_0_0_1_n_n.lhsIdx j _ 0).val = (j 0).val
      unfold DotDims.lhsIdx
      rw [dif_neg (show ¬(0 : Fin S10000x64.rank) ∈ dot_S10000x64_S64x2_S10000x2_1_0_0_1_n_n.lhsBatch by decide), dif_pos (show (0 : Fin S10000x64.rank) ∈ dot_S10000x64_S64x2_S10000x2_1_0_0_1_n_n.lhsNonContracting by decide)]
      rfl
    | ⟨1, _⟩ => exact (dot_S10000x64_S64x2_S10000x2_1_0_0_1_n_n.lhsIdx_val_of_single rfl j _).trans hk)
  have er : dot_S10000x64_S64x2_S10000x2_1_0_0_1_n_n.rhsIdx j ((contrEquiv1 dot_S10000x64_S64x2_S10000x2_1_0_0_1_n_n 64 rfl rfl).symm k) = weightBlockCol2 j k := funext fun a => Fin.ext (by
    match a with
    | ⟨0, _⟩ => exact (dot_S10000x64_S64x2_S10000x2_1_0_0_1_n_n.rhsIdx_val_of_single rfl j _).trans hk
    | ⟨1, _⟩ =>
      show (dot_S10000x64_S64x2_S10000x2_1_0_0_1_n_n.rhsIdx j _ 1).val = (j 1).val
      unfold DotDims.rhsIdx
      rw [dif_neg (show ¬(1 : Fin S64x2.rank) ∈ dot_S10000x64_S64x2_S10000x2_1_0_0_1_n_n.rhsBatch by decide), dif_pos (show (1 : Fin S64x2.rank) ∈ dot_S10000x64_S64x2_S10000x2_1_0_0_1_n_n.rhsNonContracting by decide)]
      rfl)
  rw [el, er]

/-! ## From the blocks to the array -/

theorem zero_offsets2 : (![0, 0] : Fin 2 → Nat) = fun _ => 0 := funext fun a => by fin_cases a <;> rfl

/-- The index maps over the grid: the left operand's block and the result's block move together down the rows,
    the right operand is one whole block, and there is one block across the columns. -/
theorem block_indices2 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every one of the five row blocks is some grid point's. -/
theorem block_onto2 : ∀ q0 : Fin 5, ∃ t : Fin cfg1.N, win1_2.index t = ![q0.val, 0] :=
  (by decide +kernel : ∀ q0 : Fin 5, ∃ t : Fin grid1.N, win1_2.index t = ![q0.val, 0])

/-- What grid point `t` writes back is block `t` of the product of the two operand arrays as the region finds them:
    row p of the block is row (block index · 10000 + p) of the left array, and the right array is read whole. -/
theorem flushed2_eq (c : Dev nD) (t : Fin cfg1.N) :
    (dat1 V c).flushed 2 t = ((cfg1.win 2).blk t).view.read (Elt Ideal) (hiddenProduct (V c main_v50) (V c main_v51)) := by
  show (cfg1.win 2).cut (grid1.coords t) ((dat1 V c).after 2 t) = _
  rw [after1_2]
  unfold out1_2
  rw [View.canon_unit_zero zero_offsets2]
  simp only [View.ld_unit_zero (S := S10000x64) zero_offsets2, View.ld_unit_zero (S := S64x2) zero_offsets2]
  obtain ⟨e0, e1, e2, e3, e4⟩ := block_indices2 t
  funext j
  show k1_pay1 (iblk1 V c 0 t) (iblk1 V c 1 t) j = hiddenProduct (V c main_v50) (V c main_v51) (((cfg1.win 2).blk t).view.emb j)
  refine (k1_pay1_apply (iblk1 V c 0 t) (iblk1 V c 1 t) j).trans ?_
  unfold hiddenProduct
  refine Finset.sum_congr rfl fun k _ => ?_
  have h0 : iblk1 V c 0 t (hiddenBlockRow j k) = V c main_v50 (hiddenRow (((cfg1.win 2).blk t).view.emb j) k) := by
    show V c main_v50 (((cfg1.win 0).blk t).view.emb (hiddenBlockRow j k)) = _
    refine congrArg (V c main_v50) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  have h1 : iblk1 V c 1 t (weightBlockCol2 j k) = V c main_v51 (weightCol2 (((cfg1.win 2).blk t).view.emb j) k) := by
    show V c main_v51 (((cfg1.win 1).blk t).view.emb (weightBlockCol2 j k)) = _
    refine congrArg (V c main_v51) (funext fun a => Fin.ext ?_)
    match a with
    | ⟨0, _⟩ => show win1_1.index t (0 : Fin 2) * 64 + 1 * k.val = k.val; omega
    | ⟨1, _⟩ => show win1_1.index t (1 : Fin 2) * 2 + 1 * (j 1).val = win1_2.index t (1 : Fin 2) * 2 + 1 * (j 1).val; omega
  rw [h0, h1]

/-- An index of the result array lies in point `t`'s block iff each coordinate lies in the block's range. -/
theorem mem_block2 (t : Fin cfg1.N) (i : S50000x2.Idx) :
    i ∈ ((cfg1.win 2).blk t).view.set ↔ ∀ a : Fin 2, win1_2.index t a * S10000x2.size a ≤ (i a).val ∧ (i a).val < win1_2.index t a * S10000x2.size a + S10000x2.size a := by
  show i ∈ ((View.whole main_v52).slice (win1_2.rect t)).set ↔ _
  rw [View.set_slice_whole, Rect.mem_set_unit]
  exact Iff.rfl

/-- The five row blocks tile the result: row r is in block r / 10000. -/
theorem covered2 (i : S50000x2.Idx) :
    ∃ t : Fin cfg1.N, (cfg1.win 2).flush t = true ∧ i ∈ ((cfg1.win 2).blk t).view.set := by
  have hi0 : (i 0).val < 50000 := (i 0).isLt
  have hi1 : (i 1).val < 2 := (i 1).isLt
  obtain ⟨t, ht⟩ := block_onto2 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block2]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 2 ≤ (i 1).val ∧ (i 1).val < win1_2.index t (1 : Fin 2) * 2 + 2; omega

/-- After the region the result array holds the whole product of the two operand arrays as the region found them. -/
theorem product2_array (c : Dev nD) : (dat1 V c).arrAt 2 cfg1.N = hiddenProduct (V c main_v50) (V c main_v51) :=
  (dat1 V c).arrAt_eq_of_cover 2 _ (fun t _ => flushed2_eq V c t) covered2

end Cert.KernelIdeal.Whole

end
-- ==== Proof.ProductsAgree.lean ====
/-
  The reference's two dense layers are the host's `dot_general`, which at the extended reals is the contraction onto a
  zero accumulator: entry (p, q) is the sum over k of A (p, k) · B (k, q). That is the function the kernel's two matrix
  regions leave in their result arrays, so each region's result is the reference's product of the same operands.
-/
import proofs.«163118_j47777216201257_1_alg».proof.Proof.FirstProduct
import proofs.«163118_j47777216201257_1_alg».proof.Proof.SecondProduct
import proofs.«163118_j47777216201257_1_alg».proof.Proof.ReferenceRun
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Whole Cert.ReferenceIdeal.Whole
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The first layer's product of the kernel is the host's `dot_general` of the reference. -/
theorem featProduct_eq_dot (A : Cert.KernelIdeal.S50000x128.Idx → EReal) (B : Cert.KernelIdeal.S128x64.Idx → EReal) :
    featProduct A B = Host.dotGeneral (F := Ideal) (φ₁ := .f32) (φ₂ := .f32) Cert.ReferenceIdeal.dot_S50000x128_S128x64_S50000x64_1_0_0_1_n_n none A B := by
  funext i
  show (∑ k : Fin 128, A (featRow i k) * B (weightCol1 i k)) = FloatOps.dotGeneral (F := Ideal) (φ₁ := .f32) (φ₂ := .f32) Cert.ReferenceIdeal.dot_S50000x128_S128x64_S50000x64_1_0_0_1_n_n none .single A B i
  rw [Ideal.dotGeneral_apply (φ₁ := .f32) (φ₂ := .f32), ← Equiv.sum_comp (contrEquiv1 Cert.ReferenceIdeal.dot_S50000x128_S128x64_S50000x64_1_0_0_1_n_n 128 rfl rfl).symm]
  refine Finset.sum_congr rfl fun k _ => ?_
  have hk := contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((contrEquiv1 Cert.ReferenceIdeal.dot_S50000x128_S128x64_S50000x64_1_0_0_1_n_n 128 rfl rfl).symm k) = featRow i k := funext fun a => Fin.ext (by
    match a with
    | ⟨0, _⟩ =>
      show (Cert.ReferenceIdeal.dot_S50000x128_S128x64_S50000x64_1_0_0_1_n_n.lhsIdx i _ 0).val = (i 0).val
      unfold DotDims.lhsIdx
      rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
      rfl
    | ⟨1, _⟩ => exact (Cert.ReferenceIdeal.dot_S50000x128_S128x64_S50000x64_1_0_0_1_n_n.lhsIdx_val_of_single rfl i _).trans hk)
  have er : Cert.ReferenceIdeal.dot_S50000x128_S128x64_S50000x64_1_0_0_1_n_n.rhsIdx i ((contrEquiv1 Cert.ReferenceIdeal.dot_S50000x128_S128x64_S50000x64_1_0_0_1_n_n 128 rfl rfl).symm k) = weightCol1 i k := funext fun a => Fin.ext (by
    match a with
    | ⟨0, _⟩ => exact (Cert.ReferenceIdeal.dot_S50000x128_S128x64_S50000x64_1_0_0_1_n_n.rhsIdx_val_of_single rfl i _).trans hk
    | ⟨1, _⟩ =>
      show (Cert.ReferenceIdeal.dot_S50000x128_S128x64_S50000x64_1_0_0_1_n_n.rhsIdx i _ 1).val = (i 1).val
      unfold DotDims.rhsIdx
      rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
      rfl)
  rw [el, er]

/-- The second layer's product of the kernel is the host's `dot_general` of the reference. -/
theorem hiddenProduct_eq_dot (A : Cert.KernelIdeal.S50000x64.Idx → EReal) (B : Cert.KernelIdeal.S64x2.Idx → EReal) :
    hiddenProduct A B = Host.dotGeneral (F := Ideal) (φ₁ := .f32) (φ₂ := .f32) Cert.ReferenceIdeal.dot_S50000x64_S64x2_S50000x2_1_0_0_1_n_n none A B := by
  funext i
  show (∑ k : Fin 64, A (hiddenRow i k) * B (weightCol2 i k)) = FloatOps.dotGeneral (F := Ideal) (φ₁ := .f32) (φ₂ := .f32) Cert.ReferenceIdeal.dot_S50000x64_S64x2_S50000x2_1_0_0_1_n_n none .single A B i
  rw [Ideal.dotGeneral_apply (φ₁ := .f32) (φ₂ := .f32), ← Equiv.sum_comp (contrEquiv1 Cert.ReferenceIdeal.dot_S50000x64_S64x2_S50000x2_1_0_0_1_n_n 64 rfl rfl).symm]
  refine Finset.sum_congr rfl fun k _ => ?_
  have hk := contrEquiv1_symm_val Cert.ReferenceIdeal.dot_S50000x64_S64x2_S50000x2_1_0_0_1_n_n 64 rfl rfl k
  have el : Cert.ReferenceIdeal.dot_S50000x64_S64x2_S50000x2_1_0_0_1_n_n.lhsIdx i ((contrEquiv1 Cert.ReferenceIdeal.dot_S50000x64_S64x2_S50000x2_1_0_0_1_n_n 64 rfl rfl).symm k) = hiddenRow i k := funext fun a => Fin.ext (by
    match a with
    | ⟨0, _⟩ =>
      show (Cert.ReferenceIdeal.dot_S50000x64_S64x2_S50000x2_1_0_0_1_n_n.lhsIdx i _ 0).val = (i 0).val
      unfold DotDims.lhsIdx
      rw [dif_neg (show ¬(0 : Fin Cert.ReferenceIdeal.S50000x64.rank) ∈ Cert.ReferenceIdeal.dot_S50000x64_S64x2_S50000x2_1_0_0_1_n_n.lhsBatch by decide), dif_pos (show (0 : Fin Cert.ReferenceIdeal.S50000x64.rank) ∈ Cert.ReferenceIdeal.dot_S50000x64_S64x2_S50000x2_1_0_0_1_n_n.lhsNonContracting by decide)]
      rfl
    | ⟨1, _⟩ => exact (Cert.ReferenceIdeal.dot_S50000x64_S64x2_S50000x2_1_0_0_1_n_n.lhsIdx_val_of_single rfl i _).trans hk)
  have er : Cert.ReferenceIdeal.dot_S50000x64_S64x2_S50000x2_1_0_0_1_n_n.rhsIdx i ((contrEquiv1 Cert.ReferenceIdeal.dot_S50000x64_S64x2_S50000x2_1_0_0_1_n_n 64 rfl rfl).symm k) = weightCol2 i k := funext fun a => Fin.ext (by
    match a with
    | ⟨0, _⟩ => exact (Cert.ReferenceIdeal.dot_S50000x64_S64x2_S50000x2_1_0_0_1_n_n.rhsIdx_val_of_single rfl i _).trans hk
    | ⟨1, _⟩ =>
      show (Cert.ReferenceIdeal.dot_S50000x64_S64x2_S50000x2_1_0_0_1_n_n.rhsIdx i _ 1).val = (i 1).val
      unfold DotDims.rhsIdx
      rw [dif_neg (show ¬(1 : Fin Cert.ReferenceIdeal.S64x2.rank) ∈ Cert.ReferenceIdeal.dot_S50000x64_S64x2_S50000x2_1_0_0_1_n_n.rhsBatch by decide), dif_pos (show (1 : Fin Cert.ReferenceIdeal.S64x2.rank) ∈ Cert.ReferenceIdeal.dot_S50000x64_S64x2_S50000x2_1_0_0_1_n_n.rhsNonContracting by decide)]
      rfl)
  rw [el, er]

end Cert.Bridge

end
-- ==== Proof.AfterFirstProduct.lean ====
/-
  Where the two programs stand after their first dense product. Up to there both ran the same operations on the edge
  lists (rows and columns with self-loops, degrees, the per-edge normalisation), so those buffers hold the same arrays
  when the launch memories agree on the edge list; the kernel's first region left the product of the features and the
  first weights, which is what the reference's `dot_general` computes (a change of float format is the identity at the
  extended reals); and the arguments are untouched on both sides.
-/
import proofs.«163118_j47777216201257_1_alg».proof.Proof.Stretch
import proofs.«163118_j47777216201257_1_alg».proof.Proof.FinalMemory
import proofs.«163118_j47777216201257_1_alg».proof.Proof.ReferenceRun
import proofs.«163118_j47777216201257_1_alg».proof.Proof.FirstProduct
import proofs.«163118_j47777216201257_1_alg».proof.Proof.ProductsAgree
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Whole Cert.ReferenceIdeal.Whole
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 8000000 in
/-- The destination rows (edge sources followed by the self-loops). -/
theorem first_rows (c : Dev Cert.KernelIdeal.nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    W4 m ρ c (Proc.devRef .tc Cert.KernelIdeal.main_v3) = afterFirstDot m' c (Proc.devRef .tc Cert.ReferenceIdeal.main_v3) := by
  rw [W4_of_ne m ρ c Cert.KernelIdeal.main_v3 (by decide)]
  unfold afterFirstDot afterNorm
  dsimp only [W3, W2, W1, hostOps0, hostOps0_1, hostOps0_2, normOps, firstDot]
  after_results_simp
  finish_results
  rw [show launchContents m' c (Proc.devRef .tc Cert.ReferenceIdeal.main_arg5) = W0 m ρ c (Proc.devRef .tc Cert.KernelIdeal.main_arg5) from h5]
  rfl

set_option maxHeartbeats 8000000 in
/-- The gathered columns (edge targets followed by the self-loops). -/
theorem first_cols (c : Dev Cert.KernelIdeal.nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    W4 m ρ c (Proc.devRef .tc Cert.KernelIdeal.main_v6) = afterFirstDot m' c (Proc.devRef .tc Cert.ReferenceIdeal.main_v6) := by
  rw [W4_of_ne m ρ c Cert.KernelIdeal.main_v6 (by decide)]
  unfold afterFirstDot afterNorm
  dsimp only [W3, W2, W1, hostOps0, hostOps0_1, hostOps0_2, normOps, firstDot]
  after_results_simp
  finish_results
  rw [show launchContents m' c (Proc.devRef .tc Cert.ReferenceIdeal.main_arg5) = W0 m ρ c (Proc.devRef .tc Cert.KernelIdeal.main_arg5) from h5]
  rfl

set_option maxHeartbeats 8000000 in
/-- The per-edge normalisation dinv[row] · dinv[col]. -/
theorem first_norm (c : Dev Cert.KernelIdeal.nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    W4 m ρ c (Proc.devRef .tc Cert.KernelIdeal.main_v29) = afterFirstDot m' c (Proc.devRef .tc Cert.ReferenceIdeal.main_v29) := by
  rw [W4_of_ne m ρ c Cert.KernelIdeal.main_v29 (by decide)]
  unfold afterFirstDot afterNorm
  dsimp only [W3, W2, W1, hostOps0, hostOps0_1, hostOps0_2, normOps, firstDot]
  after_results_simp
  finish_results
  rw [show launchContents m' c (Proc.devRef .tc Cert.ReferenceIdeal.main_arg5) = W0 m ρ c (Proc.devRef .tc Cert.KernelIdeal.main_arg5) from h5]
  rfl

set_option maxHeartbeats 8000000 in
theorem first_arg2 (c : Dev Cert.KernelIdeal.nD) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    W4 m ρ c (Proc.devRef .tc Cert.KernelIdeal.main_arg2) = afterFirstDot m' c (Proc.devRef .tc Cert.ReferenceIdeal.main_arg2) := by
  rw [W4_of_ne m ρ c Cert.KernelIdeal.main_arg2 (by decide)]
  unfold afterFirstDot afterNorm
  dsimp only [W3, W2, W1, hostOps0, hostOps0_1, hostOps0_2, normOps, firstDot]
  after_results_simp
  exact h2.symm

set_option maxHeartbeats 8000000 in
theorem first_arg3 (c : Dev Cert.KernelIdeal.nD) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    W4 m ρ c (Proc.devRef .tc Cert.KernelIdeal.main_arg3) = afterFirstDot m' c (Proc.devRef .tc Cert.ReferenceIdeal.main_arg3) := by
  rw [W4_of_ne m ρ c Cert.KernelIdeal.main_arg3 (by decide)]
  unfold afterFirstDot afterNorm
  dsimp only [W3, W2, W1, hostOps0, hostOps0_1, hostOps0_2, normOps, firstDot]
  after_results_simp
  exact h3.symm

set_option maxHeartbeats 8000000 in
theorem first_arg4 (c : Dev Cert.KernelIdeal.nD) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    W4 m ρ c (Proc.devRef .tc Cert.KernelIdeal.main_arg4) = afterFirstDot m' c (Proc.devRef .tc Cert.ReferenceIdeal.main_arg4) := by
  rw [W4_of_ne m ρ c Cert.KernelIdeal.main_arg4 (by decide)]
  unfold afterFirstDot afterNorm
  dsimp only [W3, W2, W1, hostOps0, hostOps0_1, hostOps0_2, normOps, firstDot]
  after_results_simp
  exact h4.symm

set_option maxHeartbeats 8000000 in
theorem first_arg5 (c : Dev Cert.KernelIdeal.nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    W4 m ρ c (Proc.devRef .tc Cert.KernelIdeal.main_arg5) = afterFirstDot m' c (Proc.devRef .tc Cert.ReferenceIdeal.main_arg5) := by
  rw [W4_of_ne m ρ c Cert.KernelIdeal.main_arg5 (by decide)]
  unfold afterFirstDot afterNorm
  dsimp only [W3, W2, W1, hostOps0, hostOps0_1, hostOps0_2, normOps, firstDot]
  after_results_simp
  exact h5.symm

set_option maxHeartbeats 8000000 in
theorem first_arg6 (c : Dev Cert.KernelIdeal.nD) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    W4 m ρ c (Proc.devRef .tc Cert.KernelIdeal.main_arg6) = afterFirstDot m' c (Proc.devRef .tc Cert.ReferenceIdeal.main_arg6) := by
  rw [W4_of_ne m ρ c Cert.KernelIdeal.main_arg6 (by decide)]
  unfold afterFirstDot afterNorm
  dsimp only [W3, W2, W1, hostOps0, hostOps0_1, hostOps0_2, normOps, firstDot]
  after_results_simp
  exact h6.symm

set_option maxHeartbeats 8000000 in
theorem first_arg7 (c : Dev Cert.KernelIdeal.nD) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    W4 m ρ c (Proc.devRef .tc Cert.KernelIdeal.main_arg7) = afterFirstDot m' c (Proc.devRef .tc Cert.ReferenceIdeal.main_arg7) := by
  rw [W4_of_ne m ρ c Cert.KernelIdeal.main_arg7 (by decide)]
  unfold afterFirstDot afterNorm
  dsimp only [W3, W2, W1, hostOps0, hostOps0_1, hostOps0_2, normOps, firstDot]
  after_results_simp
  exact h7.symm

set_option maxHeartbeats 8000000 in
/-- The first layer's product. -/
theorem first_product (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    W4 m ρ c (Proc.devRef .tc Cert.KernelIdeal.main_v32) = afterFirstDot m' c (Proc.devRef .tc Cert.ReferenceIdeal.main_v30) := by
  have hK : W4 m ρ c (Proc.devRef .tc Cert.KernelIdeal.main_v32)
      = featProduct (W3 m ρ c (Proc.devRef .tc Cert.KernelIdeal.main_v30)) (W3 m ρ c (Proc.devRef .tc Cert.KernelIdeal.main_v31)) :=
    (W4_arr m ρ c 2).trans (product1_array (V3 m ρ) c)
  rw [hK]
  unfold afterFirstDot afterNorm
  dsimp only [W3, W2, W1, hostOps0, hostOps0_1, hostOps0_2, normOps, firstDot]
  after_results_simp
  finish_results
  rw [show launchContents m' c (Proc.devRef .tc Cert.ReferenceIdeal.main_arg0) = W0 m ρ c (Proc.devRef .tc Cert.KernelIdeal.main_arg0) from h0, show launchContents m' c (Proc.devRef .tc Cert.ReferenceIdeal.main_arg1) = W0 m ρ c (Proc.devRef .tc Cert.KernelIdeal.main_arg1) from h1]
  exact featProduct_eq_dot _ _

end Cert.Bridge

end
-- ==== Proof.AfterSecondProduct.lean ====
/-
  Where the two programs stand after their second dense product. The first layer's message passing (gather by column,
  scale by the normalisation, sum into the rows, add the bias, ReLU) is the same operations on both sides, applied to
  buffers that agree after the first product; the kernel's second region left the product of the hidden features and
  the second weights, the reference's second `dot_general`; the edge buffers and the arguments pass through.
-/
import proofs.«163118_j47777216201257_1_alg».proof.Proof.AfterFirstProduct
import proofs.«163118_j47777216201257_1_alg».proof.Proof.SecondProduct
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Whole Cert.ReferenceIdeal.Whole
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 8000000 in
/-- The destination rows pass through the first layer. -/
theorem second_rows (c : Dev Cert.KernelIdeal.nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    W8 m ρ c (Proc.devRef .tc Cert.KernelIdeal.main_v3) = afterSecondDot m' c (Proc.devRef .tc Cert.ReferenceIdeal.main_v3) := by
  rw [W8_of_ne m ρ c Cert.KernelIdeal.main_v3 (by decide)]
  unfold afterSecondDot afterFirstLayer
  dsimp only [W7, W6, W5, hostOps1, hostOps1_1, hostOps1_2, secondDot, firstLayerOps]
  after_results_simp
  exact first_rows m ρ m' c h5

set_option maxHeartbeats 8000000 in
/-- The gathered columns pass through the first layer. -/
theorem second_cols (c : Dev Cert.KernelIdeal.nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    W8 m ρ c (Proc.devRef .tc Cert.KernelIdeal.main_v6) = afterSecondDot m' c (Proc.devRef .tc Cert.ReferenceIdeal.main_v6) := by
  rw [W8_of_ne m ρ c Cert.KernelIdeal.main_v6 (by decide)]
  unfold afterSecondDot afterFirstLayer
  dsimp only [W7, W6, W5, hostOps1, hostOps1_1, hostOps1_2, secondDot, firstLayerOps]
  after_results_simp
  exact first_cols m ρ m' c h5

set_option maxHeartbeats 8000000 in
/-- The per-edge normalisation passes through the first layer. -/
theorem second_norm (c : Dev Cert.KernelIdeal.nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    W8 m ρ c (Proc.devRef .tc Cert.KernelIdeal.main_v29) = afterSecondDot m' c (Proc.devRef .tc Cert.ReferenceIdeal.main_v29) := by
  rw [W8_of_ne m ρ c Cert.KernelIdeal.main_v29 (by decide)]
  unfold afterSecondDot afterFirstLayer
  dsimp only [W7, W6, W5, hostOps1, hostOps1_1, hostOps1_2, secondDot, firstLayerOps]
  after_results_simp
  exact first_norm m ρ m' c h5

set_option maxHeartbeats 8000000 in
/-- Argument 4 is untouched. -/
theorem second_arg4 (c : Dev Cert.KernelIdeal.nD) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    W8 m ρ c (Proc.devRef .tc Cert.KernelIdeal.main_arg4) = afterSecondDot m' c (Proc.devRef .tc Cert.ReferenceIdeal.main_arg4) := by
  rw [W8_of_ne m ρ c Cert.KernelIdeal.main_arg4 (by decide)]
  unfold afterSecondDot afterFirstLayer
  dsimp only [W7, W6, W5, hostOps1, hostOps1_1, hostOps1_2, secondDot, firstLayerOps]
  after_results_simp
  exact first_arg4 m ρ m' c h4

set_option maxHeartbeats 8000000 in
/-- Argument 5 is untouched. -/
theorem second_arg5 (c : Dev Cert.KernelIdeal.nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    W8 m ρ c (Proc.devRef .tc Cert.KernelIdeal.main_arg5) = afterSecondDot m' c (Proc.devRef .tc Cert.ReferenceIdeal.main_arg5) := by
  rw [W8_of_ne m ρ c Cert.KernelIdeal.main_arg5 (by decide)]
  unfold afterSecondDot afterFirstLayer
  dsimp only [W7, W6, W5, hostOps1, hostOps1_1, hostOps1_2, secondDot, firstLayerOps]
  after_results_simp
  exact first_arg5 m ρ m' c h5

set_option maxHeartbeats 8000000 in
/-- Argument 6 is untouched. -/
theorem second_arg6 (c : Dev Cert.KernelIdeal.nD) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    W8 m ρ c (Proc.devRef .tc Cert.KernelIdeal.main_arg6) = afterSecondDot m' c (Proc.devRef .tc Cert.ReferenceIdeal.main_arg6) := by
  rw [W8_of_ne m ρ c Cert.KernelIdeal.main_arg6 (by decide)]
  unfold afterSecondDot afterFirstLayer
  dsimp only [W7, W6, W5, hostOps1, hostOps1_1, hostOps1_2, secondDot, firstLayerOps]
  after_results_simp
  exact first_arg6 m ρ m' c h6

set_option maxHeartbeats 8000000 in
/-- Argument 7 is untouched. -/
theorem second_arg7 (c : Dev Cert.KernelIdeal.nD) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    W8 m ρ c (Proc.devRef .tc Cert.KernelIdeal.main_arg7) = afterSecondDot m' c (Proc.devRef .tc Cert.ReferenceIdeal.main_arg7) := by
  rw [W8_of_ne m ρ c Cert.KernelIdeal.main_arg7 (by decide)]
  unfold afterSecondDot afterFirstLayer
  dsimp only [W7, W6, W5, hostOps1, hostOps1_1, hostOps1_2, secondDot, firstLayerOps]
  after_results_simp
  exact first_arg7 m ρ m' c h7

/-- At the extended reals the cast to bf16 is the identity. -/
theorem bf16_cast_id {s : Shape} (x : FVec Ideal s .f32) (h : FTy.bf16.bits < FTy.f32.bits) :
    truncf (F := Ideal) .bf16 x h = x := rfl

set_option maxHeartbeats 16000000 in
/-- The second layer's product: the hidden features (the first layer's output) times the second weights. -/
theorem second_product (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    W8 m ρ c (Proc.devRef .tc Cert.KernelIdeal.main_v52) = afterSecondDot m' c (Proc.devRef .tc Cert.ReferenceIdeal.main_v48) := by
  have hK : W8 m ρ c (Proc.devRef .tc Cert.KernelIdeal.main_v52)
      = hiddenProduct (W7 m ρ c (Proc.devRef .tc Cert.KernelIdeal.main_v50)) (W7 m ρ c (Proc.devRef .tc Cert.KernelIdeal.main_v51)) :=
    (W8_arr m ρ c 2).trans (product2_array (V7 m ρ) c)
  rw [hK]
  unfold afterSecondDot afterFirstLayer
  dsimp only [W7, W6, W5, hostOps1, hostOps1_1, hostOps1_2, secondDot, firstLayerOps]
  after_results_simp
  finish_results
  rw [first_product m ρ m' c h0 h1, first_cols m ρ m' c h5, first_norm m ρ m' c h5, first_rows m ρ m' c h5,
    first_arg2 m ρ m' c h2, first_arg3 m ρ m' c h3]
  rw [bf16_cast_id, bf16_cast_id]
  exact hiddenProduct_eq_dot _ _

end Cert.Bridge

end
-- ==== Proof.KernelStretch.lean ====
/-
  Between its second and third regions the kernel runs 74 host operations, which the program text groups by the helper
  functions it calls. For the comparison with the reference the same 74 operations are cut where the mathematics cuts
  them — the second layer, the positive differences, the negative differences, the layout for the third region — and
  the buffer contents at each cut named. The contents at the third region's entry are the fold of the four stretches
  over the contents at the second region's exit.
-/
import proofs.«163118_j47777216201257_1_alg».proof.Proof.FinalMemory

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

variable {F : FTy → Type} [FloatOps F]

/-- The second layer's message passing: gather by column, scale by the normalisation, sum into the rows, add the bias: the embedding. -/
abbrev layerOpsK : List (HloOp τ sig (Elt F)) :=
  [ nullary main_c_9 (constantI S_ 32 0#32),
    unary main_c_9 main_v53 (broadcastInDim S850000 ![] bcast_S_S850000 : (⟨S_, .i32⟩ : BufTy).Contents (Elt F) → (⟨S850000, .i32⟩ : BufTy).Contents (Elt F)),
    binary main_v6 main_v53 main_v54 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v55 (broadcastInDim S850000 ![] bcast_S_S850000 : (⟨S_, .i32⟩ : BufTy).Contents (Elt F) → (⟨S850000, .i32⟩ : BufTy).Contents (Elt F)),
    binary main_v6 main_v55 main_v56 (addi : (⟨S850000, .i32⟩ : BufTy).Contents (Elt F) → (⟨S850000, .i32⟩ : BufTy).Contents (Elt F) → (⟨S850000, .i32⟩ : BufTy).Contents (Elt F)),
    ternary main_v54 main_v56 main_v6 main_v57 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v57 main_v58 (broadcastInDim S850000x1 ![0] bcast_S850000_S850000x1_0 : (⟨S850000, .i32⟩ : BufTy).Contents (Elt F) → (⟨S850000x1, .i32⟩ : BufTy).Contents (Elt F)),
    binary main_v52 main_v58 main_v59 ((fun x i => Host.gather gather_S50000x2_S850000x1_S850000x2_1_0_n_n_0_1_12 x i) : (⟨S50000x2, .f32⟩ : BufTy).Contents (Elt F) → (⟨S850000x1, .i32⟩ : BufTy).Contents (Elt F) → (⟨S850000x2, .f32⟩ : BufTy).Contents (Elt F)),
    unary main_v29 main_v60 (broadcastInDim S850000x1 ![0] bcast_S850000_S850000x1_0 : (⟨S850000, .f32⟩ : BufTy).Contents (Elt F) → (⟨S850000x1, .f32⟩ : BufTy).Contents (Elt F)),
    unary main_v60 main_v61 (broadcastInDim S850000x2 ![0, 1] bcast_S850000x1_S850000x2_0_1 : (⟨S850000x1, .f32⟩ : BufTy).Contents (Elt F) → (⟨S850000x2, .f32⟩ : BufTy).Contents (Elt F)),
    binary main_v59 main_v61 main_v62 (mulf : (⟨S850000x2, .f32⟩ : BufTy).Contents (Elt F) → (⟨S850000x2, .f32⟩ : BufTy).Contents (Elt F) → (⟨S850000x2, .f32⟩ : BufTy).Contents (Elt F)),
    nullary main_cst_11 (constant S_ .f32 0x00000000#32),
    unary main_cst_11 main_v63 (broadcastInDim S50000x2 ![] bcast_S_S50000x2 : (⟨S_, .f32⟩ : BufTy).Contents (Elt F) → (⟨S50000x2, .f32⟩ : BufTy).Contents (Elt F)),
    unary main_v3 main_v64 (broadcastInDim S850000x1 ![0] bcast_S850000_S850000x1_0 : (⟨S850000, .i32⟩ : BufTy).Contents (Elt F) → (⟨S850000x1, .i32⟩ : BufTy).Contents (Elt F)),
    ternary main_v63 main_v64 main_v62 main_v65 ((fun x i u => Host.scatterAdd scatter_S50000x2_S850000x1_S850000x2_1_0_0_1 x i u) : (⟨S50000x2, .f32⟩ : BufTy).Contents (Elt F) → (⟨S850000x1, .i32⟩ : BufTy).Contents (Elt F) → (⟨S850000x2, .f32⟩ : BufTy).Contents (Elt F) → (⟨S50000x2, .f32⟩ : BufTy).Contents (Elt F)),
    unary main_arg4 main_v66 (broadcastInDim S1x2 ![1] bcast_S2_S1x2_1 : (⟨S2, .f32⟩ : BufTy).Contents (Elt F) → (⟨S1x2, .f32⟩ : BufTy).Contents (Elt F)),
    unary main_v66 main_v67 (broadcastInDim S50000x2 ![0, 1] bcast_S1x2_S50000x2_0_1 : (⟨S1x2, .f32⟩ : BufTy).Contents (Elt F) → (⟨S50000x2, .f32⟩ : BufTy).Contents (Elt F)),
    binary main_v65 main_v67 main_v68 (addf : (⟨S50000x2, .f32⟩ : BufTy).Contents (Elt F) → (⟨S50000x2, .f32⟩ : BufTy).Contents (Elt F) → (⟨S50000x2, .f32⟩ : BufTy).Contents (Elt F)) ]

/-- The embedding's rows at the two ends of every positive edge, and their differences. -/
abbrev posOpsK : List (HloOp τ sig (Elt F)) :=
  [ unary main_arg5 main_v69 ((extractStridedSlice S1x800000 ![0, 0] · slices_S2x800000_S1x800000_0_0) : (⟨S2x800000, .i32⟩ : BufTy).Contents (Elt F) → (⟨S1x800000, .i32⟩ : BufTy).Contents (Elt F)),
    reshape main_v69 main_v70 rfl shapeCasts_S1x800000_S800000,
    nullary main_c_12 (constantI S_ 32 0#32),
    unary main_c_12 main_v71 (broadcastInDim S800000 ![] bcast_S_S800000 : (⟨S_, .i32⟩ : BufTy).Contents (Elt F) → (⟨S800000, .i32⟩ : BufTy).Contents (Elt F)),
    binary main_v70 main_v71 main_v72 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v73 (broadcastInDim S800000 ![] bcast_S_S800000 : (⟨S_, .i32⟩ : BufTy).Contents (Elt F) → (⟨S800000, .i32⟩ : BufTy).Contents (Elt F)),
    binary main_v70 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v70 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v68 main_v76 main_v77 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    unary main_arg5 main_v78 ((extractStridedSlice S1x800000 ![1, 0] · slices_S2x800000_S1x800000_1_0) : (⟨S2x800000, .i32⟩ : BufTy).Contents (Elt F) → (⟨S1x800000, .i32⟩ : BufTy).Contents (Elt F)),
    reshape main_v78 main_v79 rfl shapeCasts_S1x800000_S800000,
    nullary main_c_14 (constantI S_ 32 0#32),
    unary main_c_14 main_v80 (broadcastInDim S800000 ![] bcast_S_S800000 : (⟨S_, .i32⟩ : BufTy).Contents (Elt F) → (⟨S800000, .i32⟩ : BufTy).Contents (Elt F)),
    binary main_v79 main_v80 main_v81 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v82 (broadcastInDim S800000 ![] bcast_S_S800000 : (⟨S_, .i32⟩ : BufTy).Contents (Elt F) → (⟨S800000, .i32⟩ : BufTy).Contents (Elt F)),
    binary main_v79 main_v82 main_v83 (addi : (⟨S800000, .i32⟩ : BufTy).Contents (Elt F) → (⟨S800000, .i32⟩ : BufTy).Contents (Elt F) → (⟨S800000, .i32⟩ : BufTy).Contents (Elt F)),
    ternary main_v81 main_v83 main_v79 main_v84 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v84 main_v85 (broadcastInDim S800000x1 ![0] bcast_S800000_S800000x1_0 : (⟨S800000, .i32⟩ : BufTy).Contents (Elt F) → (⟨S800000x1, .i32⟩ : BufTy).Contents (Elt F)),
    binary main_v68 main_v85 main_v86 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    binary main_v77 main_v86 main_v87 (subf : (⟨S800000x2, .f32⟩ : BufTy).Contents (Elt F) → (⟨S800000x2, .f32⟩ : BufTy).Contents (Elt F) → (⟨S800000x2, .f32⟩ : BufTy).Contents (Elt F)) ]

/-- The embedding's rows at the two ends of every negative sample, and their differences. -/
abbrev negOpsK : List (HloOp τ sig (Elt F)) :=
  [ nullary main_c_16 (constantI S_ 32 0#32),
    unary main_c_16 main_v88 (broadcastInDim S800000 ![] bcast_S_S800000 : (⟨S_, .i32⟩ : BufTy).Contents (Elt F) → (⟨S800000, .i32⟩ : BufTy).Contents (Elt F)),
    binary main_arg6 main_v88 main_v89 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v90 (broadcastInDim S800000 ![] bcast_S_S800000 : (⟨S_, .i32⟩ : BufTy).Contents (Elt F) → (⟨S800000, .i32⟩ : BufTy).Contents (Elt F)),
    binary main_arg6 main_v90 main_v91 (addi : (⟨S800000, .i32⟩ : BufTy).Contents (Elt F) → (⟨S800000, .i32⟩ : BufTy).Contents (Elt F) → (⟨S800000, .i32⟩ : BufTy).Contents (Elt F)),
    ternary main_v89 main_v91 main_arg6 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v92 main_v93 (broadcastInDim S800000x1 ![0] bcast_S800000_S800000x1_0 : (⟨S800000, .i32⟩ : BufTy).Contents (Elt F) → (⟨S800000x1, .i32⟩ : BufTy).Contents (Elt F)),
    binary main_v68 main_v93 main_v94 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    nullary main_c_18 (constantI S_ 32 0#32),
    unary main_c_18 main_v95 (broadcastInDim S800000 ![] bcast_S_S800000 : (⟨S_, .i32⟩ : BufTy).Contents (Elt F) → (⟨S800000, .i32⟩ : BufTy).Contents (Elt F)),
    binary main_arg7 main_v95 main_v96 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v97 (broadcastInDim S800000 ![] bcast_S_S800000 : (⟨S_, .i32⟩ : BufTy).Contents (Elt F) → (⟨S800000, .i32⟩ : BufTy).Contents (Elt F)),
    binary main_arg7 main_v97 main_v98 (addi : (⟨S800000, .i32⟩ : BufTy).Contents (Elt F) → (⟨S800000, .i32⟩ : BufTy).Contents (Elt F) → (⟨S800000, .i32⟩ : BufTy).Contents (Elt F)),
    ternary main_v96 main_v98 main_arg7 main_v99 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v99 main_v100 (broadcastInDim S800000x1 ![0] bcast_S800000_S800000x1_0 : (⟨S800000, .i32⟩ : BufTy).Contents (Elt F) → (⟨S800000x1, .i32⟩ : BufTy).Contents (Elt F)),
    binary main_v68 main_v100 main_v101 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    binary main_v94 main_v101 main_v102 (subf : (⟨S800000x2, .f32⟩ : BufTy).Contents (Elt F) → (⟨S800000x2, .f32⟩ : BufTy).Contents (Elt F) → (⟨S800000x2, .f32⟩ : BufTy).Contents (Elt F)) ]

/-- The differences joined, their two coordinate columns taken out, padded with zeros and reshaped to 12800 × 128. -/
abbrev layoutOpsK : List (HloOp τ sig (Elt F)) :=
  [ binary main_v87 main_v102 main_v103 ((fun a b => concatenate S1600000x2 0 [⟨S800000x2, a⟩, ⟨S800000x2, b⟩] concatenates_S800000x2_S800000x2_S1600000x2_d0) : (⟨S800000x2, .f32⟩ : BufTy).Contents (Elt F) → (⟨S800000x2, .f32⟩ : BufTy).Contents (Elt F) → (⟨S1600000x2, .f32⟩ : BufTy).Contents (Elt F)),
    unary main_v103 main_v104 ((extractStridedSlice S1600000x1 ![0, 0] · slices_S1600000x2_S1600000x1_0_0) : (⟨S1600000x2, .f32⟩ : BufTy).Contents (Elt F) → (⟨S1600000x1, .f32⟩ : BufTy).Contents (Elt F)),
    reshape main_v104 main_v105 rfl shapeCasts_S1600000x1_S1600000,
    unary main_v103 main_v106 ((extractStridedSlice S1600000x1 ![0, 1] · slices_S1600000x2_S1600000x1_0_1) : (⟨S1600000x2, .f32⟩ : BufTy).Contents (Elt F) → (⟨S1600000x1, .f32⟩ : BufTy).Contents (Elt F)),
    reshape main_v106 main_v107 rfl shapeCasts_S1600000x1_S1600000,
    nullary main_c_20 (constantI S_ 32 0#32),
    TRef.unary (TRef.of (T := ⟨S_, .i32⟩) main_c_20) (TRef.of (T := ⟨S_, .f32⟩) main_call2_v0) (sitofp .f32),
    TRef.binary (TRef.of (T := ⟨S1600000, .f32⟩) main_v105) (TRef.of (T := ⟨S_, .f32⟩) main_call2_v0) (TRef.of (T := ⟨S1638400, .f32⟩) main_v108) (fun x v => pad S1638400 ![0] ![38400] ![0] x v pads_S1600000_S1638400_0384000 h_S_),
    nullary main_c_21 (constantI S_ 32 0#32),
    TRef.unary (TRef.of (T := ⟨S_, .i32⟩) main_c_21) (TRef.of (T := ⟨S_, .f32⟩) main_call3_v0) (sitofp .f32),
    TRef.binary (TRef.of (T := ⟨S1600000, .f32⟩) main_v107) (TRef.of (T := ⟨S_, .f32⟩) main_call3_v0) (TRef.of (T := ⟨S1638400, .f32⟩) main_v109) (fun x v => pad S1638400 ![0] ![38400] ![0] x v pads_S1600000_S1638400_0384000 h_S_),
    reshape main_v108 main_v110 rfl shapeCasts_S1638400_S12800x128,
    reshape main_v109 main_v111 rfl shapeCasts_S1638400_S12800x128 ]

set_option maxRecDepth 16384 in
set_option maxHeartbeats 4000000 in
/-- The program's grouping of the 74 operations and this one list the same operations in the same order. -/
theorem stretch_split : (hostOps2 ++ (hostOps2_1 ++ (hostOps2_2 ++ (hostOps2_3 ++ hostOps2_4))) : List (HloOp τ sig (Elt F)))
    = layerOpsK ++ (posOpsK ++ (negOpsK ++ layoutOpsK)) := rfl

variable (m : (ℓ : Loc nD τ sig) → Buf (Elt F) ℓ) (ρ : Dev nD → PrngReg) (c : Dev nD)

/-- The buffer contents after the second layer, from the second region's exit. -/
def kernelLayer : Valuation τ sig (Elt F) := after layerOpsK (W8 m ρ c)
/-- … after the differences over the positive edges. -/
def kernelPos : Valuation τ sig (Elt F) := after posOpsK (kernelLayer m ρ c)
/-- … after the differences over the negative samples. -/
def kernelNeg : Valuation τ sig (Elt F) := after negOpsK (kernelPos m ρ c)

/-- The contents at the third region's entry are the layout stretch's fold over those. -/
theorem W13_eq : W13 m ρ c = after layoutOpsK (kernelNeg m ρ c) := by
  have h : W13 m ρ c = after (hostOps2 ++ (hostOps2_1 ++ (hostOps2_2 ++ (hostOps2_3 ++ hostOps2_4)))) (W8 m ρ c) := by
    rw [after_append, after_append, after_append, after_append]
  unfold kernelNeg kernelPos kernelLayer
  rw [h, stretch_split, after_append, after_append, after_append]

set_option maxHeartbeats 16000000 in
/-- The first result is the embedding the second layer left: the later stretches and the third region do not write it. -/
theorem kernel_first : W15 m ρ c (Proc.devRef .tc main_v68) = kernelLayer m ρ c (Proc.devRef .tc main_v68) := by
  have hK : W15 m ρ c (Proc.devRef .tc main_v68) = W14 m ρ c (Proc.devRef .tc main_v68) := by
    dsimp only [W15, hostOps3]
    after_results_simp
  rw [hK, W14_of_ne m ρ c main_v68 (by decide), W13_eq]
  unfold kernelNeg kernelPos
  dsimp only [layoutOpsK, negOpsK, posOpsK]
  after_results_simp

set_option maxHeartbeats 16000000 in
/-- Argument 5 passes through the second layer. -/
theorem kernelLayer_arg5 : kernelLayer m ρ c (Proc.devRef .tc main_arg5) = W8 m ρ c (Proc.devRef .tc main_arg5) := by
  unfold kernelLayer
  dsimp only [layerOpsK]
  after_results_simp

set_option maxHeartbeats 16000000 in
/-- Argument 6 passes through the second layer. -/
theorem kernelLayer_arg6 : kernelLayer m ρ c (Proc.devRef .tc main_arg6) = W8 m ρ c (Proc.devRef .tc main_arg6) := by
  unfold kernelLayer
  dsimp only [layerOpsK]
  after_results_simp

set_option maxHeartbeats 16000000 in
/-- Argument 7 passes through the second layer. -/
theorem kernelLayer_arg7 : kernelLayer m ρ c (Proc.devRef .tc main_arg7) = W8 m ρ c (Proc.devRef .tc main_arg7) := by
  unfold kernelLayer
  dsimp only [layerOpsK]
  after_results_simp

set_option maxHeartbeats 16000000 in
/-- The positive differences pass through the negative-sample stretch. -/
theorem kernelNeg_pos : kernelNeg m ρ c (Proc.devRef .tc main_v87) = kernelPos m ρ c (Proc.devRef .tc main_v87) := by
  unfold kernelNeg
  dsimp only [negOpsK]
  after_results_simp

set_option maxHeartbeats 16000000 in
/-- The embedding passes through the positive-edge stretch. -/
theorem kernelPos_emb : kernelPos m ρ c (Proc.devRef .tc main_v68) = kernelLayer m ρ c (Proc.devRef .tc main_v68) := by
  unfold kernelPos
  dsimp only [posOpsK]
  after_results_simp

set_option maxHeartbeats 16000000 in
theorem kernelPos_arg6 : kernelPos m ρ c (Proc.devRef .tc main_arg6) = kernelLayer m ρ c (Proc.devRef .tc main_arg6) := by
  unfold kernelPos
  dsimp only [posOpsK]
  after_results_simp

set_option maxHeartbeats 16000000 in
theorem kernelPos_arg7 : kernelPos m ρ c (Proc.devRef .tc main_arg7) = kernelLayer m ρ c (Proc.devRef .tc main_arg7) := by
  unfold kernelPos
  dsimp only [posOpsK]
  after_results_simp

end Cert.KernelIdeal.Whole

end
-- ==== Proof.EmbeddingAgrees.lean ====
/-
  The embedding. After the second dense product both programs run the second layer's message passing (gather by column,
  scale by the normalisation, sum into the rows, add the bias) on buffers that agree: the embedding's buffers hold the
  same array, and the sample lists pass through. Nothing later writes the embedding, so it is also the first result of
  both programs.
-/
import proofs.«163118_j47777216201257_1_alg».proof.Proof.AfterSecondProduct
import proofs.«163118_j47777216201257_1_alg».proof.Proof.KernelStretch
import proofs.«163118_j47777216201257_1_alg».proof.Proof.ReferenceArguments
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Whole Cert.ReferenceIdeal.Whole
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 16000000 in
/-- The embedding as the second layer leaves it. -/
theorem layer_emb (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    kernelLayer m ρ c (Proc.devRef .tc Cert.KernelIdeal.main_v68) = afterSecondLayer m' c (Proc.devRef .tc Cert.ReferenceIdeal.main_v64) := by
  unfold kernelLayer afterSecondLayer
  dsimp only [layerOpsK, secondLayerOps]
  after_results_simp
  finish_results
  rw [second_product m ρ m' c h0 h1 h2 h3 h5, second_cols m ρ m' c h5, second_norm m ρ m' c h5, second_rows m ρ m' c h5,
    second_arg4 m ρ m' c h4]
  rfl

/-- Argument 5 passes through the second layer on both sides. -/
theorem layer_arg5 (c : Dev Cert.KernelIdeal.nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    kernelLayer m ρ c (Proc.devRef .tc Cert.KernelIdeal.main_arg5) = afterSecondLayer m' c (Proc.devRef .tc Cert.ReferenceIdeal.main_arg5) :=
  (kernelLayer_arg5 m ρ c).trans ((second_arg5 m ρ m' c h5).trans (secondLayer_arg5 m' c).symm)

/-- Argument 6 passes through the second layer on both sides. -/
theorem layer_arg6 (c : Dev Cert.KernelIdeal.nD) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    kernelLayer m ρ c (Proc.devRef .tc Cert.KernelIdeal.main_arg6) = afterSecondLayer m' c (Proc.devRef .tc Cert.ReferenceIdeal.main_arg6) :=
  (kernelLayer_arg6 m ρ c).trans ((second_arg6 m ρ m' c h6).trans (secondLayer_arg6 m' c).symm)

/-- Argument 7 passes through the second layer on both sides. -/
theorem layer_arg7 (c : Dev Cert.KernelIdeal.nD) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    kernelLayer m ρ c (Proc.devRef .tc Cert.KernelIdeal.main_arg7) = afterSecondLayer m' c (Proc.devRef .tc Cert.ReferenceIdeal.main_arg7) :=
  (kernelLayer_arg7 m ρ c).trans ((second_arg7 m ρ m' c h7).trans (secondLayer_arg7 m' c).symm)

/-- The kernel's first result and the reference's are equal when the launch memories agree on the arguments. -/
theorem embedding_agrees (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    W15 m ρ c (Proc.devRef .tc Cert.KernelIdeal.main_v68) = atEnd m' c (Proc.devRef .tc Cert.ReferenceIdeal.main_v64) :=
  (kernel_first m ρ c).trans ((layer_emb m ρ m' c h0 h1 h2 h3 h4 h5).trans (atEnd_emb m' c).symm)

end Cert.Bridge

end
-- ==== Proof.DifferencesAgree.lean ====
/-
  The pair differences. Both programs gather the embedding's rows at the two ends of every positive edge and of every
  negative sample (the indices wrapped and clamped the same way) and subtract: the same operations on an embedding that
  agrees, so the two difference arrays agree.
-/
import proofs.«163118_j47777216201257_1_alg».proof.Proof.EmbeddingAgrees
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Whole Cert.ReferenceIdeal.Whole
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 32000000 in
/-- The differences over the positive edges, as the positive-edge stretch leaves them. -/
theorem pos_stretch (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    kernelPos m ρ c (Proc.devRef .tc Cert.KernelIdeal.main_v87) = afterPos m' c (Proc.devRef .tc Cert.ReferenceIdeal.main_v83) := by
  unfold kernelPos afterPos
  dsimp only [posOpsK, posOps]
  after_results_simp
  finish_results
  rw [layer_emb m ρ m' c h0 h1 h2 h3 h4 h5, layer_arg5 m ρ m' c h5]
  rfl

/-- … and as both programs hold them when the last stage begins. -/
theorem pos_differences (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    kernelNeg m ρ c (Proc.devRef .tc Cert.KernelIdeal.main_v87) = afterNeg m' c (Proc.devRef .tc Cert.ReferenceIdeal.main_v83) :=
  (kernelNeg_pos m ρ c).trans ((pos_stretch m ρ m' c h0 h1 h2 h3 h4 h5).trans (afterNeg_pos m' c).symm)

/-- The embedding where the negative-sample stretch reads it. -/
theorem pos_emb (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    kernelPos m ρ c (Proc.devRef .tc Cert.KernelIdeal.main_v68) = afterPos m' c (Proc.devRef .tc Cert.ReferenceIdeal.main_v64) :=
  (kernelPos_emb m ρ c).trans ((layer_emb m ρ m' c h0 h1 h2 h3 h4 h5).trans (afterPos_emb m' c).symm)

theorem pos_arg6 (c : Dev Cert.KernelIdeal.nD) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    kernelPos m ρ c (Proc.devRef .tc Cert.KernelIdeal.main_arg6) = afterPos m' c (Proc.devRef .tc Cert.ReferenceIdeal.main_arg6) :=
  (kernelPos_arg6 m ρ c).trans ((layer_arg6 m ρ m' c h6).trans (afterPos_arg6 m' c).symm)

theorem pos_arg7 (c : Dev Cert.KernelIdeal.nD) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    kernelPos m ρ c (Proc.devRef .tc Cert.KernelIdeal.main_arg7) = afterPos m' c (Proc.devRef .tc Cert.ReferenceIdeal.main_arg7) :=
  (kernelPos_arg7 m ρ c).trans ((layer_arg7 m ρ m' c h7).trans (afterPos_arg7 m' c).symm)

set_option maxHeartbeats 32000000 in
/-- The differences over the negative samples. -/
theorem neg_differences (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    kernelNeg m ρ c (Proc.devRef .tc Cert.KernelIdeal.main_v102) = afterNeg m' c (Proc.devRef .tc Cert.ReferenceIdeal.main_v98) := by
  unfold kernelNeg afterNeg
  dsimp only [negOpsK, negOps]
  after_results_simp
  finish_results
  rw [pos_emb m ρ m' c h0 h1 h2 h3 h4 h5, pos_arg6 m ρ m' c h6, pos_arg7 m ρ m' c h7]
  rfl

end Cert.Bridge

end
-- ==== Proof.PairProbability.lean ====
/-
  The third pipelined region applies one pointwise chain to the two coordinate arrays (12800 × 128 each, 3200 rows per
  grid point): from the x and y differences of a pair, 1 / (1 + a · exp (2b · log √(x² + y² + ε))). Every grid point
  writes back its 3200 rows of that one whole-array function, and the four blocks tile the array.
-/
import proofs.«163118_j47777216201257_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The chain on one pair of coordinates, operation by operation as the body applies it. -/
def pairProb (x y : Ideal .f32) : Ideal .f32 :=
  FloatOps.divf (Scalar.ofBits .f32 0x3F800000#32)
    (FloatOps.addf (Scalar.ofBits .f32 0x3F800000#32)
      (FloatOps.mulf (Scalar.ofBits .f32 0x3E1BA5E3#32)
        (FloatOps.exp (FloatOps.mulf (Scalar.ofBits .f32 0x3FCA3D71#32)
          (FloatOps.log (FloatOps.sqrt (FloatOps.addf (FloatOps.addf (FloatOps.mulf x x) (FloatOps.mulf y y))
            (Scalar.ofBits .f32 0x2B8CBCCC#32))))))))

/-- The chain over the whole 12800 × 128 layout, index by index. -/
def probArray (X Y : S12800x128.Idx → Ideal .f32) : S12800x128.Idx → Ideal .f32 := fun i => pairProb (X i) (Y i)

/-- The body's one store holds the chain of its two loaded blocks, index by index. -/
theorem k2_pay1_apply (x0 x1 : Vec Ideal S3200x128 .f32) (j : S3200x128.Idx) :
    k2_pay1 (F := Ideal) x0 x1 j = pairProb (x0 j) (x1 j) := by
  unfold k2_pay1
  rw [shapeCast_self, shapeCast_self]
  rfl

theorem zero_offsets3 : (![0, 0] : Fin 2 → Nat) = fun _ => 0 := funext fun a => by fin_cases a <;> rfl

/-- The index maps over the grid: the three windows move together down the rows, one block across the lanes. -/
theorem block_indices3 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (1 : Fin 2) = 0 :=
  (by decide +kernel : ∀ t : Fin grid2.N, _)

/-- Every one of the four row blocks is some grid point's. -/
theorem block_onto3 : ∀ q0 : Fin 4, ∃ t : Fin cfg2.N, win2_2.index t = ![q0.val, 0] :=
  (by decide +kernel : ∀ q0 : Fin 4, ∃ t : Fin grid2.N, win2_2.index t = ![q0.val, 0])

/-- What grid point `t` writes back is block `t` of the chain of the two coordinate arrays as the region finds them. -/
theorem flushed3_eq (c : Dev nD) (t : Fin cfg2.N) :
    (dat2 V c).flushed 2 t = ((cfg2.win 2).blk t).view.read (Elt Ideal) (probArray (V c main_v110) (V c main_v111)) := by
  show (cfg2.win 2).cut (grid2.coords t) ((dat2 V c).after 2 t) = _
  rw [after2_2]
  unfold out2_2
  rw [View.canon_unit_zero zero_offsets3]
  simp only [View.ld_unit_zero (S := S3200x128) zero_offsets3]
  obtain ⟨e0, e1, e2, e3, e4⟩ := block_indices3 t
  funext j
  show k2_pay1 (iblk2 V c 0 t) (iblk2 V c 1 t) j = probArray (V c main_v110) (V c main_v111) (((cfg2.win 2).blk t).view.emb j)
  refine (k2_pay1_apply (iblk2 V c 0 t) (iblk2 V c 1 t) j).trans ?_
  unfold probArray
  have h0 : iblk2 V c 0 t j = V c main_v110 (((cfg2.win 2).blk t).view.emb j) := by
    show V c main_v110 (((cfg2.win 0).blk t).view.emb j) = _
    refine congrArg (V c main_v110) (funext fun a => Fin.ext ?_)
    match a with
    | ⟨0, _⟩ => show win2_0.index t (0 : Fin 2) * 3200 + 1 * (j 0).val = win2_2.index t (0 : Fin 2) * 3200 + 1 * (j 0).val; omega
    | ⟨1, _⟩ => show win2_0.index t (1 : Fin 2) * 128 + 1 * (j 1).val = win2_2.index t (1 : Fin 2) * 128 + 1 * (j 1).val; omega
  have h1 : iblk2 V c 1 t j = V c main_v111 (((cfg2.win 2).blk t).view.emb j) := by
    show V c main_v111 (((cfg2.win 1).blk t).view.emb j) = _
    refine congrArg (V c main_v111) (funext fun a => Fin.ext ?_)
    match a with
    | ⟨0, _⟩ => show win2_1.index t (0 : Fin 2) * 3200 + 1 * (j 0).val = win2_2.index t (0 : Fin 2) * 3200 + 1 * (j 0).val; omega
    | ⟨1, _⟩ => show win2_1.index t (1 : Fin 2) * 128 + 1 * (j 1).val = win2_2.index t (1 : Fin 2) * 128 + 1 * (j 1).val; omega
  rw [h0, h1]

/-- An index of the result array lies in point `t`'s block iff each coordinate lies in the block's range. -/
theorem mem_block3 (t : Fin cfg2.N) (i : S12800x128.Idx) :
    i ∈ ((cfg2.win 2).blk t).view.set ↔ ∀ a : Fin 2, win2_2.index t a * S3200x128.size a ≤ (i a).val ∧ (i a).val < win2_2.index t a * S3200x128.size a + S3200x128.size a := by
  show i ∈ ((View.whole main_v112).slice (win2_2.rect t)).set ↔ _
  rw [View.set_slice_whole, Rect.mem_set_unit]
  exact Iff.rfl

/-- The four row blocks tile the array: row r is in block r / 3200. -/
theorem covered3 (i : S12800x128.Idx) :
    ∃ t : Fin cfg2.N, (cfg2.win 2).flush t = true ∧ i ∈ ((cfg2.win 2).blk t).view.set := by
  have hi0 : (i 0).val < 12800 := (i 0).isLt
  have hi1 : (i 1).val < 128 := (i 1).isLt
  obtain ⟨t, ht⟩ := block_onto3 ⟨(i 0).val / 3200, by omega⟩
  have q0 : win2_2.index t (0 : Fin 2) = (i 0).val / 3200 := congrFun ht 0
  have q1 : win2_2.index t (1 : Fin 2) = 0 := congrFun ht 1
  refine ⟨t, flush2_2 t, ?_⟩
  rw [mem_block3]
  intro a
  match a with
  | ⟨0, _⟩ => show win2_2.index t (0 : Fin 2) * 3200 ≤ (i 0).val ∧ (i 0).val < win2_2.index t (0 : Fin 2) * 3200 + 3200; omega
  | ⟨1, _⟩ => show win2_2.index t (1 : Fin 2) * 128 ≤ (i 1).val ∧ (i 1).val < win2_2.index t (1 : Fin 2) * 128 + 128; omega

/-- After the region the result array holds the chain of the two coordinate arrays as the region found them. -/
theorem prob_array (c : Dev nD) : (dat2 V c).arrAt 2 cfg2.N = probArray (V c main_v110) (V c main_v111) :=
  (dat2 V c).arrAt_eq_of_cover 2 _ (fun t _ => flushed3_eq V c t) covered3

end Cert.KernelIdeal.Whole

end
-- ==== Proof.PairLayout.lean ====
/-
  Around its third region the kernel lays the pairs out for the lanes: the positive-edge and negative-sample differences
  are joined (1600000 rows of two coordinates), each coordinate column is taken out, padded with 38400 zeros to
  1638400 = 12800 · 128 entries and reshaped to 12800 × 128; after the region the result is flattened again and its first
  1600000 entries kept. Read at pair number i, all of that is the pointwise chain applied to the two coordinates of row i
  of the joined differences: entry i of the flat array sits at (i / 128, i % 128) of the layout, and i < 1600000 is
  inside the unpadded part.
-/
import Idealize.ShloMosaic.Lib.Pipeline.Value
import Idealize.ShloMosaic.Lib.ValueIdx
import Idealize.ShloMosaic.PureOps.Ideal.Laws
import Idealize.ShloMosaic.Lib.KernelVsHost
import proofs.«163118_j47777216201257_1_alg».proof.Proof.PairProbability

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- The differences of the positive edges followed by those of the negative samples. -/
def joined (P N : S800000x2.Idx → Ideal .f32) : S1600000x2.Idx → Ideal .f32 :=
  concatenate S1600000x2 0 [⟨S800000x2, P⟩, ⟨S800000x2, N⟩] concatenates_S800000x2_S800000x2_S1600000x2_d0

/-- The first coordinate of every joined difference, as a flat vector. -/
def xColumn (P N : S800000x2.Idx → Ideal .f32) : S1600000.Idx → Ideal .f32 :=
  shapeCast S1600000 (extractStridedSlice S1600000x1 ![0, 0] (joined P N) slices_S1600000x2_S1600000x1_0_0) shapeCasts_S1600000x1_S1600000

/-- The second coordinate of every joined difference, as a flat vector. -/
def yColumn (P N : S800000x2.Idx → Ideal .f32) : S1600000.Idx → Ideal .f32 :=
  shapeCast S1600000 (extractStridedSlice S1600000x1 ![0, 1] (joined P N) slices_S1600000x2_S1600000x1_0_1) shapeCasts_S1600000x1_S1600000

/-- A flat vector of 1600000 entries padded with zeros to 1638400 and laid out as 12800 rows of 128 lanes. -/
def padded (x : S1600000.Idx → Ideal .f32) : S12800x128.Idx → Ideal .f32 :=
  shapeCast S12800x128 (pad S1638400 ![0] ![38400] ![0] x (sitofp (F := Ideal) .f32 (constantI S_ 32 0#32)) pads_S1600000_S1638400_0384000 h_S_) shapeCasts_S1638400_S12800x128

/-- The kernel's second result from the two difference arrays: the chain over the padded layout, flattened, the padding dropped. -/
def kernelProb (P N : S800000x2.Idx → Ideal .f32) : S1600000.Idx → Ideal .f32 :=
  extractStridedSlice S1600000 ![0] (shapeCast S1638400 (probArray (padded (xColumn P N)) (padded (yColumn P N))) shapeCasts_S12800x128_S1638400) slices_S1638400_S1600000_0

/-- Row r < 800000 of the joined array is row r of the positive differences. -/
theorem joined_left (P N : S800000x2.Idx → Ideal .f32) (i0 : Fin 1600000) (h : i0.val < 800000) (l : Fin 2) :
    joined P N (ix2 i0 l) = P (ix2 (⟨i0.val, h⟩ : Fin 800000) l) := by
  unfold joined
  exact concatenate_pair_apply_left (0 : Fin 2) P N concatenates_S800000x2_S800000x2_S1600000x2_d0 (ix2 i0 l) rfl (ix2 (⟨i0.val, h⟩ : Fin 800000) l)
    (fun b => match b with | ⟨0, _⟩ => rfl | ⟨1, _⟩ => rfl)

/-- Row r ≥ 800000 of the joined array is row r - 800000 of the negative differences. -/
theorem joined_right (P N : S800000x2.Idx → Ideal .f32) (i0 : Fin 1600000) (h : ¬ i0.val < 800000) (l : Fin 2) :
    joined P N (ix2 i0 l) = N (ix2 (⟨i0.val - 800000, by have := i0.isLt; omega⟩ : Fin 800000) l) := by
  unfold joined
  exact concatenate_pair_apply_right (0 : Fin 2) P N concatenates_S800000x2_S800000x2_S1600000x2_d0 (ix2 i0 l) rfl rfl
    (ix2 (⟨i0.val - 800000, by have := i0.isLt; omega⟩ : Fin 800000) l)
    (fun b hb => match b with | ⟨0, _⟩ => absurd rfl hb | ⟨1, _⟩ => rfl)
    (by show i0.val - 800000 + 800000 = i0.val; omega)

/-- Entry i of a coordinate column is that coordinate of row i of the joined array. -/
theorem xColumn_apply (P N : S800000x2.Idx → Ideal .f32) (i0 : Fin 1600000) :
    xColumn P N (ix1 i0) = joined P N (ix2 i0 (0 : Fin 2)) := by
  unfold xColumn
  refine (shapeCast_apply _ shapeCasts_S1600000x1_S1600000 (ix1 i0) (ix2 i0 (0 : Fin 1)) ?_).trans ?_
  · rw [Shape.rowMajor_val_two, Shape.rowMajor_val_one]; show i0.val * 1 + 0 = i0.val; omega
  · exact extractStridedSlice_apply ![0, 0] _ slices_S1600000x2_S1600000x1_0_0 (ix2 i0 (0 : Fin 1)) (ix2 i0 (0 : Fin 2))
      (fun a => match a with | ⟨0, _⟩ => (by show i0.val = 0 + i0.val; omega) | ⟨1, _⟩ => rfl)

theorem yColumn_apply (P N : S800000x2.Idx → Ideal .f32) (i0 : Fin 1600000) :
    yColumn P N (ix1 i0) = joined P N (ix2 i0 (1 : Fin 2)) := by
  unfold yColumn
  refine (shapeCast_apply _ shapeCasts_S1600000x1_S1600000 (ix1 i0) (ix2 i0 (0 : Fin 1)) ?_).trans ?_
  · rw [Shape.rowMajor_val_two, Shape.rowMajor_val_one]; show i0.val * 1 + 0 = i0.val; omega
  · exact extractStridedSlice_apply ![0, 1] _ slices_S1600000x2_S1600000x1_0_1 (ix2 i0 (0 : Fin 1)) (ix2 i0 (1 : Fin 2))
      (fun a => match a with | ⟨0, _⟩ => (by show i0.val = 0 + i0.val; omega) | ⟨1, _⟩ => rfl)

/-- Entry i < 1600000 of a flat vector sits at row i / 128, lane i % 128 of its padded layout. -/
theorem padded_apply (x : S1600000.Idx → Ideal .f32) (i0 : Fin 1600000) :
    padded x (ix2 (⟨i0.val / 128, by have := i0.isLt; omega⟩ : Fin 12800) (⟨i0.val % 128, by omega⟩ : Fin 128)) = x (ix1 i0) := by
  unfold padded
  refine (shapeCast_apply _ shapeCasts_S1638400_S12800x128 _ (ix1 (⟨i0.val, by have := i0.isLt; omega⟩ : Fin 1638400)) ?_).trans ?_
  · rw [Shape.rowMajor_val_two, Shape.rowMajor_val_one]; show i0.val = i0.val / 128 * 128 + i0.val % 128; omega
  · exact pad_apply_of_inside ![0] ![38400] ![0] x _ pads_S1600000_S1638400_0384000 h_S_ _ (ix1 i0)
      (fun a => match a with | ⟨0, _⟩ => (by show i0.val = 0 + i0.val * (0 + 1); omega))

/-- The kernel's second result at pair i is the chain on the two coordinates of row i of the joined differences. -/
theorem kernelProb_apply (P N : S800000x2.Idx → Ideal .f32) (i0 : Fin 1600000) :
    kernelProb P N (ix1 i0) = pairProb (joined P N (ix2 i0 (0 : Fin 2))) (joined P N (ix2 i0 (1 : Fin 2))) := by
  unfold kernelProb
  refine (extractStridedSlice_apply ![0] _ slices_S1638400_S1600000_0 (ix1 i0) (ix1 (⟨i0.val, by have := i0.isLt; omega⟩ : Fin 1638400))
    (fun a => match a with | ⟨0, _⟩ => (by show i0.val = 0 + i0.val; omega))).trans ?_
  refine (shapeCast_apply _ shapeCasts_S12800x128_S1638400 _
    (ix2 (⟨i0.val / 128, by have := i0.isLt; omega⟩ : Fin 12800) (⟨i0.val % 128, by omega⟩ : Fin 128)) ?_).trans ?_
  · rw [Shape.rowMajor_val_two, Shape.rowMajor_val_one]; show i0.val / 128 * 128 + i0.val % 128 = i0.val; omega
  · show pairProb (padded (xColumn P N) _) (padded (yColumn P N) _) = _
    rw [padded_apply, padded_apply, xColumn_apply, yColumn_apply]

end Cert.KernelIdeal.Whole

end
-- ==== Proof.ReferenceProbability.lean ====
/-
  The reference's last stage, as a function of the two difference arrays (800000 rows of two coordinates each): the
  squared length of every row (a sum over the two coordinates, from 0), plus ε, its square root; the two vectors of
  lengths joined; each length raised to the power 2b; and 1 / (1 + a · that). Read at pair number i it is that chain on
  row i of the positive differences (i < 800000) or row i - 800000 of the negative ones.
-/
import proofs.«163118_j47777216201257_1_alg».proof.Proof.ReferenceRun
import Idealize.ShloMosaic.Lib.Pipeline.Value
import Idealize.ShloMosaic.Lib.ValueIdx
import Idealize.ShloMosaic.PureOps.Ideal.Laws

set_option maxRecDepth 16384

noncomputable section

namespace Cert.ReferenceIdeal.Whole

open Idealize.ShloMosaic Idealize.ShloMosaic.TcCoe Idealize.SL.Sem Idealize.ShloMosaic.ValueIdx
open Cert.ReferenceIdeal Cert.ReferenceIdeal.Gen
open scoped BigOperators

/-- The length √(x² + y² + ε) of every row of a difference array. -/
def pairLength (D : S800000x2.Idx → Ideal .f32) : S800000.Idx → Ideal .f32 :=
  Host.sqrt (addf (Host.reduceAdd (mulf D D) (constant S_ .f32 0x00000000#32) reducesTo_S800000x2_S800000_d1 h_S_)
    (broadcastInDim S800000 ![] bcast_S_S800000 (constant S_ .f32 0x2B8CBCCC#32)))

/-- The reference's second result from the two difference arrays. -/
def refProb (P N : S800000x2.Idx → Ideal .f32) : S1600000.Idx → Ideal .f32 :=
  Host.divf (broadcastInDim S1600000 ![] bcast_S_S1600000 (constant S_ .f32 0x3F800000#32))
    (addf (broadcastInDim S1600000 ![] bcast_S_S1600000 (constant S_ .f32 0x3F800000#32))
      (mulf (broadcastInDim S1600000 ![] bcast_S_S1600000 (constant S_ .f32 0x3E1BA5E3#32))
        (Host.powf (concatenate S1600000 0 [⟨S800000, pairLength P⟩, ⟨S800000, pairLength N⟩] concatenates_S800000_S800000_S1600000_d0)
          (broadcastInDim S1600000 ![] bcast_S_S1600000 (constant S_ .f32 0x3FCA3D71#32)))))

/-- The chain on one pair of coordinates as the reference applies it: the sum of squares from 0, plus ε, its root, the power. -/
def refPair (x y : EReal) : EReal :=
  Ideal.div (Ideal.ofBits .f32 0x3F800000#32)
    (Ideal.ofBits .f32 0x3F800000#32 + Ideal.ofBits .f32 0x3E1BA5E3#32 *
      Ideal.pow (Ideal.sqrt (Ideal.ofBits .f32 0x00000000#32 + (x * x + y * y) + Ideal.ofBits .f32 0x2B8CBCCC#32)) (Ideal.ofBits .f32 0x3FCA3D71#32))

/-- The host's sum over the two coordinates of a row, from 0. -/
theorem rowSum_apply (Y : S800000x2.Idx → Ideal .f32) (r : Fin 800000) :
    Host.reduceAdd (F := Ideal) Y (constant S_ .f32 0x00000000#32) reducesTo_S800000x2_S800000_d1 h_S_ (ix1 r)
      = Ideal.ofBits .f32 0x00000000#32 + (Y (ix2 r (0 : Fin 2)) + Y (ix2 r (1 : Fin 2))) := by
  simp only [Host.reduceAdd, Ideal.hostReduceAdd_def]
  rw [Ideal.hostReduceAdd_single reducesTo_S800000x2_S800000_d1 (by decide)]
  refine (congrArg (_ + ·) (Fin.sum_univ_two _)).trans ?_
  exact congrArg₂ (· + ·) rfl (congrArg₂ (· + ·)
    (congrArg Y (funext fun a => Fin.ext (by match a with | ⟨0, _⟩ => rfl | ⟨1, _⟩ => rfl)))
    (congrArg Y (funext fun a => Fin.ext (by match a with | ⟨0, _⟩ => rfl | ⟨1, _⟩ => rfl))))

/-- A broadcast scalar constant reads its value at every index. -/
theorem splat_apply {S : Shape} (h : S_.BroadcastsInDim S (![] : Fin 0 → Fin S.rank)) (w : BitVec 32) (j : S.Idx) :
    broadcastInDim S ![] h (constant (F := Ideal) S_ .f32 w) j = Ideal.ofBits .f32 w := rfl

/-- The host's square root reads through an index. -/
theorem hostSqrt_apply {S : Shape} (x : FVec Ideal S .f32) (i : S.Idx) :
    Host.sqrt x i = FloatOps.hostUnary .sqrt (x i) := rfl

/-- A row's length is the root of the sum, from 0, of its two squared coordinates, plus ε. -/
theorem pairLength_apply (D : S800000x2.Idx → Ideal .f32) (r : Fin 800000) :
    pairLength D (ix1 r) = Ideal.sqrt (Ideal.ofBits .f32 0x00000000#32
      + (D (ix2 r (0 : Fin 2)) * D (ix2 r (0 : Fin 2)) + D (ix2 r (1 : Fin 2)) * D (ix2 r (1 : Fin 2))) + Ideal.ofBits .f32 0x2B8CBCCC#32) := by
  unfold pairLength
  rw [hostSqrt_apply, Ideal.hostUnary_sqrt_def, addf_apply, rowSum_apply, mulf_apply, mulf_apply, splat_apply]

/-- The reference's second result at a pair of the first half: the chain on that row of the positive differences. -/
theorem refProb_left (P N : S800000x2.Idx → Ideal .f32) (i0 : Fin 1600000) (h : i0.val < 800000) :
    refProb P N (ix1 i0) = refPair (P (ix2 (⟨i0.val, h⟩ : Fin 800000) (0 : Fin 2))) (P (ix2 (⟨i0.val, h⟩ : Fin 800000) (1 : Fin 2))) := by
  have e : concatenate S1600000 0 [⟨S800000, pairLength P⟩, ⟨S800000, pairLength N⟩] concatenates_S800000_S800000_S1600000_d0 (ix1 i0)
      = pairLength P (ix1 (⟨i0.val, h⟩ : Fin 800000)) :=
    concatenate_pair_apply_left (0 : Fin 1) (pairLength P) (pairLength N) concatenates_S800000_S800000_S1600000_d0 (ix1 i0) rfl
      (ix1 (⟨i0.val, h⟩ : Fin 800000)) (fun b => match b with | ⟨0, _⟩ => rfl)
  unfold refProb
  simp only [Host.divf, addf, mulf, Host.powf, Ideal.hostDivf_def, Ideal.addf_def, Ideal.mulf_def, Ideal.hostPowf_def]
  rw [e, pairLength_apply]
  rfl

/-- … and at a pair of the second half: the chain on that row of the negative differences. -/
theorem refProb_right (P N : S800000x2.Idx → Ideal .f32) (i0 : Fin 1600000) (h : ¬ i0.val < 800000) :
    refProb P N (ix1 i0) = refPair (N (ix2 (⟨i0.val - 800000, by have := i0.isLt; omega⟩ : Fin 800000) (0 : Fin 2)))
      (N (ix2 (⟨i0.val - 800000, by have := i0.isLt; omega⟩ : Fin 800000) (1 : Fin 2))) := by
  have e : concatenate S1600000 0 [⟨S800000, pairLength P⟩, ⟨S800000, pairLength N⟩] concatenates_S800000_S800000_S1600000_d0 (ix1 i0)
      = pairLength N (ix1 (⟨i0.val - 800000, by have := i0.isLt; omega⟩ : Fin 800000)) :=
    concatenate_pair_apply_right (0 : Fin 1) (pairLength P) (pairLength N) concatenates_S800000_S800000_S1600000_d0 (ix1 i0) rfl rfl
      (ix1 (⟨i0.val - 800000, by have := i0.isLt; omega⟩ : Fin 800000)) (fun b hb => match b with | ⟨0, _⟩ => absurd rfl hb)
      (by show i0.val - 800000 + 800000 = i0.val; omega)
  unfold refProb
  simp only [Host.divf, addf, mulf, Host.powf, Ideal.hostDivf_def, Ideal.addf_def, Ideal.mulf_def, Ideal.hostPowf_def]
  rw [e, pairLength_apply]
  rfl

end Cert.ReferenceIdeal.Whole

end
-- ==== Proof.PowerLaw.lean ====
/-
  The one law that joins the two programs' last stage. The kernel computes a power as exp (c · log s); the reference
  applies the power function s ^ c. Over the extended reals, with the conventions of the ideal reading (log 0 = -∞,
  exp (-∞) = 0, exp ∞ = ∞, ∞ ^ c = ∞ for c > 0, 0 ^ c = 0 for c > 0), the two agree whenever the exponent c is a
  positive real and the base is a square root s = √d of some d ≥ 0 — finite or not. Here d is a sum of two squares
  and a nonnegative constant, and a square is nonnegative in the extended reals too ((-∞)² = ∞² = ∞).
-/
import Idealize.ShloMosaic.PureOps.Ideal
import Idealize.ShloMosaic.PureOps.Ideal.Laws

noncomputable section

namespace Cert.Spec

open Idealize.ShloMosaic

/-- A square is nonnegative over the extended reals. -/
theorem ereal_mul_self_nonneg (x : EReal) : 0 ≤ x * x := by
  induction x using EReal.rec with
  | bot => simp
  | top => simp
  | coe r => rw [← EReal.coe_mul]; exact_mod_cast mul_self_nonneg r

/-- The square root of a nonnegative real, read at the extended reals, is the real square root. -/
theorem sqrt_coe_of_nonneg (r : ℝ) (hr : 0 ≤ r) : Ideal.sqrt (r : EReal) = ((Real.sqrt r : ℝ) : EReal) := by
  show (if r < 0 then (⊥ : EReal) else ((Real.sqrt r : ℝ) : EReal)) = _
  rw [if_neg (not_lt.mpr hr)]

/-- exp (c · log √d) = (√d) ^ c for a positive real exponent and any nonnegative extended real d. -/
theorem exp_mul_log_sqrt (c : ℝ) (hc : 0 < c) (d : EReal) (hd : 0 ≤ d) :
    Ideal.exp ((c : EReal) * Ideal.log (Ideal.sqrt d)) = Ideal.pow (Ideal.sqrt d) (c : EReal) := by
  induction d using EReal.rec with
  | bot => exact absurd hd (by simp)
  | top =>
    show Ideal.exp ((c : EReal) * (⊤ : EReal)) = (if (0 : EReal) < (c : EReal) then (⊤ : EReal) else if (c : EReal) = 0 then 1 else 0)
    rw [EReal.coe_mul_top_of_pos hc, if_pos (by exact_mod_cast hc)]
    rfl
  | coe r =>
    have hr : 0 ≤ r := by exact_mod_cast hd
    rw [sqrt_coe_of_nonneg r hr]
    rcases (Real.sqrt_nonneg r).eq_or_lt with h0 | hpos
    · -- √d = 0: log 0 = -∞, c · (-∞) = -∞, exp (-∞) = 0 = 0 ^ c
      rw [← h0]
      show Ideal.exp ((c : EReal) * (if (0 : ℝ) ≤ 0 then (⊥ : EReal) else ((Real.log 0 : ℝ) : EReal))) = ((Real.rpow 0 c : ℝ) : EReal)
      rw [if_pos le_rfl, EReal.coe_mul_bot_of_pos hc]
      show (0 : EReal) = ((Real.rpow 0 c : ℝ) : EReal)
      rw [show Real.rpow 0 c = 0 from Real.zero_rpow hc.ne']
      rfl
    · -- √d > 0: the real identity s ^ c = exp (log s · c)
      show Ideal.exp ((c : EReal) * (if Real.sqrt r ≤ 0 then (⊥ : EReal) else ((Real.log (Real.sqrt r) : ℝ) : EReal))) = ((Real.rpow (Real.sqrt r) c : ℝ) : EReal)
      rw [if_neg (not_le.mpr hpos), ← EReal.coe_mul]
      show ((Real.exp (c * Real.log (Real.sqrt r)) : ℝ) : EReal) = _
      rw [show Real.rpow (Real.sqrt r) c = Real.exp (Real.log (Real.sqrt r) * c) from Real.rpow_def_of_pos hpos c, mul_comm]

/-- The exponent 2b as the kernel and the reference both spell it (the float nearest 1.58) is a positive real. -/
theorem exponent_pos : ∃ r : ℝ, 0 < r ∧ Ideal.ofBits .f32 0x3FCA3D71#32 = (r : EReal) :=
  ⟨13254001 / 8388608, by norm_num, by simp [Ideal.ofBits, Ideal.ieee, -EReal.coe_mul]; norm_num⟩

/-- The guard ε as both programs spell it (the float nearest 1e-12) is a nonnegative real. -/
theorem guard_nonneg : ∃ r : ℝ, 0 ≤ r ∧ Ideal.ofBits .f32 0x2B8CBCCC#32 = (r : EReal) :=
  ⟨9223372 / 2 ^ 63, by positivity, by simp [Ideal.ofBits, Ideal.ieee, -EReal.coe_mul]; norm_num⟩

/-- The base of the power: x² + y² + ε is nonnegative for every pair of extended reals. -/
theorem sum_squares_guard_nonneg (x y : EReal) : 0 ≤ x * x + y * y + Ideal.ofBits .f32 0x2B8CBCCC#32 := by
  obtain ⟨e, he, hE⟩ := guard_nonneg
  rw [hE]
  exact add_nonneg (add_nonneg (ereal_mul_self_nonneg x) (ereal_mul_self_nonneg y)) (by exact_mod_cast he)

end Cert.Spec

end
-- ==== Proof.ProbabilitiesAgree.lean ====
/-
  The two programs' second results are one function of the two difference arrays. At every pair both apply a chain to the
  same two coordinates; the chains differ in that the kernel writes the power as exp (2b · log s) where the reference
  applies s ^ (2b), and in the reference's sum starting from 0. The base s is the root of x² + y² + ε ≥ 0 and the exponent
  is a positive real, so the two chains are equal on all extended reals.
-/
import proofs.«163118_j47777216201257_1_alg».proof.Proof.PairLayout
import proofs.«163118_j47777216201257_1_alg».proof.Proof.ReferenceProbability
import proofs.«163118_j47777216201257_1_alg».proof.Proof.PowerLaw
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Whole Cert.ReferenceIdeal.Whole
open scoped BigOperators

/-- A scalar float constant of the kernel body denotes its word's value. -/
theorem scalar_word (w : BitVec 32) : Scalar.ofBits (F := Ideal) .f32 w = Ideal.ofBits .f32 w := rfl

/-- The kernel's chain on one pair of coordinates is the reference's: both are written out in the extended reals'
    own operations, the reference's sum from 0 is the sum, and the power law turns exp (2b · log s) into s ^ (2b). -/
theorem pairProb_eq_refPair (x y : EReal) : pairProb x y = refPair x y := by
  obtain ⟨r, hr, hE⟩ := Cert.Spec.exponent_pos
  rw [pairProb, refPair]
  rw [Ideal.divf_def, Ideal.addf_def, Ideal.mulf_def, Ideal.exp_def, Ideal.mulf_def, Ideal.log_def, Ideal.sqrt_def,
    Ideal.addf_def, Ideal.addf_def, Ideal.mulf_def, Ideal.mulf_def]
  rw [scalar_word, scalar_word, scalar_word, scalar_word]
  rw [Ideal.ofBits_zero_f32, zero_add, hE, Cert.Spec.exp_mul_log_sqrt r hr _ (Cert.Spec.sum_squares_guard_nonneg x y)]

/-- The kernel's second result and the reference's are the same function of the two difference arrays. -/
theorem kernelProb_eq_refProb (P N : Cert.KernelIdeal.S800000x2.Idx → Ideal .f32) : kernelProb P N = refProb P N := by
  funext i
  obtain ⟨i0, rfl⟩ : ∃ i0 : Fin 1600000, i = ix1 i0 := ⟨i 0, eq_ix1 i⟩
  by_cases h : i0.val < 800000
  · rw [kernelProb_apply, joined_left P N i0 h, joined_left P N i0 h]
    exact (pairProb_eq_refPair _ _).trans (refProb_left P N i0 h).symm
  · rw [kernelProb_apply, joined_right P N i0 h, joined_right P N i0 h]
    exact (pairProb_eq_refPair _ _).trans (refProb_right P N i0 h).symm

end Cert.Bridge

end
-- ==== Proof.SecondResult.lean ====
/-
  The second result. The kernel lays the pair differences out for its third region, applies the pointwise chain there and
  flattens the result; the reference applies its own chain to the rows' lengths. Both are functions of the two difference
  arrays only, the differences agree, and the two functions are equal.
-/
import proofs.«163118_j47777216201257_1_alg».proof.Proof.DifferencesAgree
import proofs.«163118_j47777216201257_1_alg».proof.Proof.PairLayout
import proofs.«163118_j47777216201257_1_alg».proof.Proof.ReferenceProbability
import proofs.«163118_j47777216201257_1_alg».proof.Proof.ProbabilitiesAgree
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Whole Cert.ReferenceIdeal.Whole
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 16000000 in
/-- The first operand of the kernel's third region is the padded layout of the first coordinates. -/
theorem x_layout (c : Dev Cert.KernelIdeal.nD) :
    W13 m ρ c (Proc.devRef .tc Cert.KernelIdeal.main_v110) = padded (xColumn (kernelNeg m ρ c (Proc.devRef .tc Cert.KernelIdeal.main_v87)) (kernelNeg m ρ c (Proc.devRef .tc Cert.KernelIdeal.main_v102))) := by
  rw [W13_eq]
  dsimp only [layoutOpsK]
  after_results_simp
  finish_results
  rfl

set_option maxHeartbeats 16000000 in
/-- The second operand is the padded layout of the second coordinates. -/
theorem y_layout (c : Dev Cert.KernelIdeal.nD) :
    W13 m ρ c (Proc.devRef .tc Cert.KernelIdeal.main_v111) = padded (yColumn (kernelNeg m ρ c (Proc.devRef .tc Cert.KernelIdeal.main_v87)) (kernelNeg m ρ c (Proc.devRef .tc Cert.KernelIdeal.main_v102))) := by
  rw [W13_eq]
  dsimp only [layoutOpsK]
  after_results_simp
  finish_results
  rfl

set_option maxHeartbeats 8000000 in
/-- The kernel's second result is its function of the two difference arrays. -/
theorem kernel_second (c : Dev Cert.KernelIdeal.nD) :
    W15 m ρ c (Proc.devRef .tc Cert.KernelIdeal.main_v114) = kernelProb (kernelNeg m ρ c (Proc.devRef .tc Cert.KernelIdeal.main_v87)) (kernelNeg m ρ c (Proc.devRef .tc Cert.KernelIdeal.main_v102)) := by
  have h112 : W14 m ρ c (Proc.devRef .tc Cert.KernelIdeal.main_v112)
      = probArray (W13 m ρ c (Proc.devRef .tc Cert.KernelIdeal.main_v110)) (W13 m ρ c (Proc.devRef .tc Cert.KernelIdeal.main_v111)) :=
    (W14_arr m ρ c 2).trans (prob_array (V13 m ρ) c)
  dsimp only [W15, hostOps3]
  after_results_simp
  rw [h112, x_layout, y_layout]
  rfl

set_option maxHeartbeats 16000000 in
/-- The reference's second result is its function of the two difference arrays. -/
theorem reference_second (c : Dev Cert.ReferenceIdeal.nD) :
    atEnd m' c (Proc.devRef .tc Cert.ReferenceIdeal.main_v117) = refProb (afterNeg m' c (Proc.devRef .tc Cert.ReferenceIdeal.main_v83)) (afterNeg m' c (Proc.devRef .tc Cert.ReferenceIdeal.main_v98)) := by
  unfold atEnd
  dsimp only [probOps]
  after_results_simp
  finish_results
  rfl

/-- The kernel's second result and the reference's are equal when the launch memories agree on the arguments. -/
theorem second_result_agrees (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    W15 m ρ c (Proc.devRef .tc Cert.KernelIdeal.main_v114) = atEnd m' c (Proc.devRef .tc Cert.ReferenceIdeal.main_v117) := by
  rw [kernel_second, reference_second, pos_differences m ρ m' c h0 h1 h2 h3 h4 h5, neg_differences m ρ m' c h0 h1 h2 h3 h4 h5 h6 h7]
  exact kernelProb_eq_refProb _ _

end Cert.Bridge

end
-- ==== Proof.lean ====
/-
  A two-layer graph convolution followed by a pairwise probability. Both programs compute, from node features, two weight
  matrices with biases, an edge list and two lists of negative samples:

    emb = Â · relu (Â · (X · W₁) + b₁) · W₂ + b₂        (Â the edge list with self-loops, normalised by D^(-1/2) on both sides)
    q i = 1 / (1 + a · ‖emb[u i] - emb[v i]‖ ^ (2b))     over the positive edges, then the negative samples,
                                                        with ‖d‖ = √(d₀² + d₁² + ε).

  The kernel computes the two dense products X · W₁ and h · W₂ in pipelined regions on the matrix unit (operands cast to
  bf16, 10000 rows per grid point) and the probability in a third pipelined region over a padded 12800 × 128 layout, as
  1 / (1 + a · exp (2b · log ‖d‖)); everything else — the normalisation, the gathers, the scatter-adds, the biases, the
  differences — is the same host code in both programs.

  Read at the extended reals, where a change of float format is the identity and the matrix unit's contraction is the
  plain sum of products:
  * each matrix region writes back, block by block, whole rows of ONE matrix product, and its five blocks tile the result
    (FirstProduct, SecondProduct), which is the reference's `dot_general` of the same operands (ProductsAgree);
  * the host stretches between the regions are compared fold against fold, buffer by buffer, from the agreement of the
    launch memories on the arguments (AfterFirstProduct, AfterSecondProduct, EmbeddingAgrees, DifferencesAgree);
  * the third region writes back 3200-row blocks of one pointwise function of its two operand arrays (PairProbability); read
    at pair i through the padding and the two reshapes it is that function of row i of the joined differences (PairLayout);
    the reference's chain at pair i is read the same way (ReferenceProbability); and exp (c · log s) = s ^ c for a positive
    real c and s = √d with d ≥ 0, on every extended real — d is two squares plus a nonnegative constant — (PowerLaw,
    ProbabilitiesAgree, SecondResult).
  No step needs the inputs to be finite: no sum is distributed over and nothing is cancelled.

  The kernel's run is stated with its final memory read at every buffer (FinalMemory); the reference's as the fold of its
  152 operations (ReferenceRun, ReferenceArguments). The idealization rewrote nothing, so `preserves` is `True`.
-/
import proofs.«163118_j47777216201257_1_alg».proof.Defs
import proofs.«163118_j47777216201257_1_alg».proof.Proof.Gen.Kernel
import proofs.«163118_j47777216201257_1_alg».proof.Proof.Gen.Kernel.Skeleton
import proofs.«163118_j47777216201257_1_alg».proof.Proof.Gen.Kernel.Launch
import proofs.«163118_j47777216201257_1_alg».proof.Proof.Gen.Kernel.Points
import proofs.«163118_j47777216201257_1_alg».proof.Proof.Gen.Kernel.Frame
import proofs.«163118_j47777216201257_1_alg».proof.Proof.Gen.KernelIdeal
import proofs.«163118_j47777216201257_1_alg».proof.Proof.Gen.KernelIdeal.Skeleton
import proofs.«163118_j47777216201257_1_alg».proof.Proof.Gen.KernelIdeal.Launch
import proofs.«163118_j47777216201257_1_alg».proof.Proof.Gen.KernelIdeal.Points
import proofs.«163118_j47777216201257_1_alg».proof.Proof.Gen.KernelIdeal.Frame
import proofs.«163118_j47777216201257_1_alg».proof.Proof.Gen.ReferenceIdeal
import proofs.«163118_j47777216201257_1_alg».proof.Proof.Gen.Pre_finite_inputs
import proofs.«163118_j47777216201257_1_alg».proof.Proof.FinalMemory
import proofs.«163118_j47777216201257_1_alg».proof.Proof.ReferenceArguments
import proofs.«163118_j47777216201257_1_alg».proof.Proof.EmbeddingAgrees
import proofs.«163118_j47777216201257_1_alg».proof.Proof.SecondResult
import Idealize.ShloMosaic.Adequacy
import Idealize.ShloMosaic.Init

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and no operation of it writes an argument. -/
theorem frame_reference : Cert.frame_ReferenceIdeal := fun m ρ _ =>
  (θ_run Cert.ReferenceIdeal.defs _ _).mono (fun _ h c =>
    ⟨(h c Cert.ReferenceIdeal.main_arg0).trans (Cert.ReferenceIdeal.Whole.atEnd_arg0 m c),
     (h c Cert.ReferenceIdeal.main_arg1).trans (Cert.ReferenceIdeal.Whole.atEnd_arg1 m c),
     (h c Cert.ReferenceIdeal.main_arg2).trans (Cert.ReferenceIdeal.Whole.atEnd_arg2 m c),
     (h c Cert.ReferenceIdeal.main_arg3).trans (Cert.ReferenceIdeal.Whole.atEnd_arg3 m c),
     (h c Cert.ReferenceIdeal.main_arg4).trans (Cert.ReferenceIdeal.Whole.atEnd_arg4 m c),
     (h c Cert.ReferenceIdeal.main_arg5).trans (Cert.ReferenceIdeal.Whole.atEnd_arg5 m c),
     (h c Cert.ReferenceIdeal.main_arg6).trans (Cert.ReferenceIdeal.Whole.atEnd_arg6 m c),
     (h c Cert.ReferenceIdeal.main_arg7).trans (Cert.ReferenceIdeal.Whole.atEnd_arg7 m c)⟩)
    (Cert.ReferenceIdeal.Whole.run (F := Ideal) m ρ)

/-- From launch memories that agree on the eight arguments both idealized programs run and end with the same embedding
    and the same probabilities, the arguments unchanged. -/
theorem algebraic : Cert.algebraic_KernelIdeal_ReferenceIdeal := by
  intro m ρ m' ρ' _ hagree
  refine ⟨fun c => Cert.KernelIdeal.Gen.W15 m ρ c (Proc.devRef .tc Cert.KernelIdeal.main_v68),
    fun c => Cert.KernelIdeal.Gen.W15 m ρ c (Proc.devRef .tc Cert.KernelIdeal.main_v114), ?_, ?_⟩
  · exact (θ_run Cert.KernelIdeal.defs _ _).mono (fun r h c =>
      ⟨h c Cert.KernelIdeal.main_v68 (by decide), h c Cert.KernelIdeal.main_v114 (by decide),
       (h c Cert.KernelIdeal.main_arg0 (by decide)).trans (Cert.KernelIdeal.Gen.W15_main_arg0 m ρ c),
       (h c Cert.KernelIdeal.main_arg1 (by decide)).trans (Cert.KernelIdeal.Gen.W15_main_arg1 m ρ c),
       (h c Cert.KernelIdeal.main_arg2 (by decide)).trans (Cert.KernelIdeal.Gen.W15_main_arg2 m ρ c),
       (h c Cert.KernelIdeal.main_arg3 (by decide)).trans (Cert.KernelIdeal.Gen.W15_main_arg3 m ρ c),
       (h c Cert.KernelIdeal.main_arg4 (by decide)).trans (Cert.KernelIdeal.Gen.W15_main_arg4 m ρ c),
       (h c Cert.KernelIdeal.main_arg5 (by decide)).trans (Cert.KernelIdeal.Gen.W15_main_arg5 m ρ c),
       (h c Cert.KernelIdeal.main_arg6 (by decide)).trans (Cert.KernelIdeal.Gen.W15_main_arg6 m ρ c),
       (h c Cert.KernelIdeal.main_arg7 (by decide)).trans (Cert.KernelIdeal.Gen.W15_main_arg7 m ρ c)⟩)
      (Cert.KernelIdeal.Whole.run_final (F := Ideal) m ρ)
  · refine (θ_run Cert.ReferenceIdeal.defs _ _).mono (fun r h c => ?_) (Cert.ReferenceIdeal.Whole.run (F := Ideal) m' ρ')
    obtain ⟨a0, a1, a2, a3, a4, a5, a6, a7⟩ := hagree c
    exact ⟨(h c Cert.ReferenceIdeal.main_v64).trans (Cert.Bridge.embedding_agrees m ρ m' c a0 a1 a2 a3 a4 a5).symm,
      (h c Cert.ReferenceIdeal.main_v117).trans (Cert.Bridge.second_result_agrees m ρ m' c a0 a1 a2 a3 a4 a5 a6 a7).symm,
      (h c Cert.ReferenceIdeal.main_arg0).trans (Cert.ReferenceIdeal.Whole.atEnd_arg0 m' c),
      (h c Cert.ReferenceIdeal.main_arg1).trans (Cert.ReferenceIdeal.Whole.atEnd_arg1 m' c),
      (h c Cert.ReferenceIdeal.main_arg2).trans (Cert.ReferenceIdeal.Whole.atEnd_arg2 m' c),
      (h c Cert.ReferenceIdeal.main_arg3).trans (Cert.ReferenceIdeal.Whole.atEnd_arg3 m' c),
      (h c Cert.ReferenceIdeal.main_arg4).trans (Cert.ReferenceIdeal.Whole.atEnd_arg4 m' c),
      (h c Cert.ReferenceIdeal.main_arg5).trans (Cert.ReferenceIdeal.Whole.atEnd_arg5 m' c),
      (h c Cert.ReferenceIdeal.main_arg6).trans (Cert.ReferenceIdeal.Whole.atEnd_arg6 m' c),
      (h c Cert.ReferenceIdeal.main_arg7).trans (Cert.ReferenceIdeal.Whole.atEnd_arg7 m' c)⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
